-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S256x128 .f32) (main_arg12 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S256x128 .f32) (main_arg10 : FVec F S128 .f32) (main_arg11 : FVec F S256x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : FVec F S100000x128 .f32) (main_arg2 : IVec S800000 32) (main_arg3 : IVec S800000 32) (main_arg4 : FVec F S800000 .f32) (main_arg5 : FVec F S128x128 .f32) (main_arg6 : FVec F S128 .f32) (main_arg7 : FVec F S128x128 .f32) (main_arg8 : FVec F S128 .f32) (main_arg9 : FVec F S256x128 .f32) (main_arg10 : FVec F S128 .f32) (main_arg11 : FVec F S256x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x100000x128 : Shape := ⟨3, ![1, 100000, 128]⟩
abbrev S6x100000x128 : Shape := ⟨3, ![6, 100000, 128]⟩

abbrev nBuf : Space → Nat
  | .hbm => 66
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S100000x128, .f32⟩
  | .hbm, ⟨14, _⟩ => ⟨S100000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S100000x128, .f32⟩
  | .hbm, ⟨29, _⟩ => ⟨S800000x1, .i32⟩
  | .hbm, ⟨30, _⟩ => ⟨S100000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x1, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S100000x128, .f32⟩
  | .hbm, ⟨45, _⟩ => ⟨S800000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S1x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S1x100000x128, .f32⟩
  | .hbm, ⟨60, _⟩ => ⟨S1x100000x128, .f32⟩
  | .hbm, ⟨61, _⟩ => ⟨S1x100000x128, .f32⟩
  | .hbm, ⟨62, _⟩ => ⟨S1x100000x128, .f32⟩
  | .hbm, ⟨63, _⟩ => ⟨S1x100000x128, .f32⟩
  | .hbm, ⟨64, _⟩ => ⟨S1x100000x128, .f32⟩
  | .hbm, ⟨65, _⟩ => ⟨S6x100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg5_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem5_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem5_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S128x128_S128x128 : S128x128.ShapeCasts S128x128
  bcast_S100000x128_S1x100000x128_1_2 : S100000x128.BroadcastsInDim S1x100000x128 (![1, 2] : Fin 2 → Fin S1x100000x128.rank)
  concatenates_S1x100000x128_S1x100000x128_S1x100000x128_S1x100000x128_S1x100000x128_S1x100000x128_S6x100000x128_d0 : Shape.Concatenates [S1x100000x128, S1x100000x128, S1x100000x128, S1x100000x128, S1x100000x128, S1x100000x128] S6x100000x128 0
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v37) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg1) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v35) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v38) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v39) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S100000x256 : Shape := ⟨2, ![100000, 256]⟩
abbrev S1x100000x128 : Shape := ⟨3, ![1, 100000, 128]⟩
abbrev S6x100000x128 : Shape := ⟨3, ![6, 100000, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S100000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S100000x128, .f32⟩
  | .hbm, ⟨28, _⟩ => ⟨S800000x1, .i32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S_, .f32⟩
  | .hbm, ⟨35, _⟩ => ⟨S100000x128, .f32⟩
  | .hbm, ⟨36, _⟩ => ⟨S100000x128, .i1⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x1, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S100000x128, .f32⟩
  | .hbm, ⟨56, _⟩ => ⟨S800000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S_, .f32⟩
  | .hbm, ⟨63, _⟩ => ⟨S100000x128, .f32⟩
  | .hbm, ⟨64, _⟩ => ⟨S100000x128, .i1⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x256, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x256, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S1x100000x128, .f32⟩
  | .hbm, ⟨86, _⟩ => ⟨S1x100000x128, .f32⟩
  | .hbm, ⟨87, _⟩ => ⟨S1x100000x128, .f32⟩
  | .hbm, ⟨88, _⟩ => ⟨S1x100000x128, .f32⟩
  | .hbm, ⟨89, _⟩ => ⟨S1x100000x128, .f32⟩
  | .hbm, ⟨90, _⟩ => ⟨S1x100000x128, .f32⟩
  | .hbm, ⟨91, _⟩ => ⟨S6x100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call2_cst : Ref sig .tc := ⟨.hbm, 79, rfl⟩
abbrev main_call2_v0 : Ref sig .tc := ⟨.hbm, 80, rfl⟩
abbrev main_v46 : Ref sig .tc := ⟨.hbm, 81, rfl⟩
abbrev main_call3_cst : Ref sig .tc := ⟨.hbm, 82, rfl⟩
abbrev main_call3_v0 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S100000x128_S1x100000x128_1_2 : S100000x128.BroadcastsInDim S1x100000x128 (![1, 2] : Fin 2 → Fin S1x100000x128.rank)
  concatenates_S1x100000x128_S1x100000x128_S1x100000x128_S1x100000x128_S1x100000x128_S1x100000x128_S6x100000x128_d0 : Shape.Concatenates [S1x100000x128, S1x100000x128, S1x100000x128, S1x100000x128, S1x100000x128, S1x100000x128] S6x100000x128 0
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KBRegion0.lean ====
/-
  Region 0 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.Kernel.Launch
import proofs.«159471_j32143535243482_1_alg».proof.Proof.Gen.Kernel.Skeleton
import proofs.«159471_j32143535243482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current staging buffer holds its block at every point, whether or not it was fetched there
   (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its one whole-block store of the body's value of the input blocks. -/
def out0_2 (x0 : Vec F S5000x128 .f32) (x1 : Vec F S128x128 .f32) : Vec F S5000x128 .f32 :=
  View.canon [⟨(Rect.unit (s := S5000x128) ![0, 0] S5000x128.size inb_S5000x128_S5000x128_0_0), k0_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The one store covers the whole block. -/
theorem cover0_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body at point t each input's
    buffer holds its block and the output's the stored value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBRegion1.lean ====
/-
  Region 1 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.Kernel.Launch
import proofs.«159471_j32143535243482_1_alg».proof.Proof.Gen.Kernel.Skeleton
import proofs.«159471_j32143535243482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current staging buffer holds its block at every point, whether or not it was fetched there
   (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one whole-block store of the body's value of the input blocks. -/
def out1_2 (x0 : Vec F S5000x128 .f32) (x1 : Vec F S128x128 .f32) : Vec F S5000x128 .f32 :=
  View.canon [⟨(Rect.unit (s := S5000x128) ![0, 0] S5000x128.size inb_S5000x128_S5000x128_0_0), k1_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The one store covers the whole block. -/
theorem cover1_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core c: the arrays as the region finds them; after the body at point t each input's
    buffer holds its block and the output's the stored value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KBRegion2.lean ====
/-
  Region 2 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.Kernel.Launch
import proofs.«159471_j32143535243482_1_alg».proof.Proof.Gen.Kernel.Skeleton
import proofs.«159471_j32143535243482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input window's current staging buffer holds its block at every point, whether or not it was fetched there
   (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body: its one whole-block store of the body's value of the input blocks. -/
def out2_2 (x0 : Vec F S5000x128 .f32) (x1 : Vec F S1x128 .f32) : Vec F S5000x128 .f32 :=
  View.canon [⟨(Rect.unit (s := S5000x128) ![0, 0] S5000x128.size inb_S5000x128_S5000x128_0_0), k2_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The one store covers the whole block. -/
theorem cover2_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_leaky_relu_kernel i arg1 harg1 arg2 harg2 arg3 harg3) K := by
  simp only [cc2__bias_leaky_relu_kernel_eq_skeleton]; unfold cc2__bias_leaky_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core c: the arrays as the region finds them; after the body at point t each input's
    buffer holds its block and the output's the stored value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KBRegion3.lean ====
/-
  Region 3 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.Kernel.Launch
import proofs.«159471_j32143535243482_1_alg».proof.Proof.Gen.Kernel.Skeleton
import proofs.«159471_j32143535243482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/- An input window's current staging buffer holds its block at every point, whether or not it was fetched there
   (an unfetched window's block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one whole-block store of the body's value of the input blocks. -/
def out3_2 (x0 : Vec F S5000x128 .f32) (x1 : Vec F S1x128 .f32) : Vec F S5000x128 .f32 :=
  View.canon [⟨(Rect.unit (s := S5000x128) ![0, 0] S5000x128.size inb_S5000x128_S5000x128_0_0), k3_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The one store covers the whole block. -/
theorem cover3_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_leaky_relu_kernel i arg1 harg1 arg2 harg2 arg3 harg3) K := by
  simp only [cc3__bias_leaky_relu_kernel_eq_skeleton]; unfold cc3__bias_leaky_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core c: the arrays as the region finds them; after the body at point t each input's
    buffer holds its block and the output's the stored value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KBRegion4.lean ====
/-
  Region 4 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.Kernel.Launch
import proofs.«159471_j32143535243482_1_alg».proof.Proof.Gen.Kernel.Skeleton
import proofs.«159471_j32143535243482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/- An input window's current staging buffer holds its block at every point, whether or not it was fetched there
   (an unfetched window's block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output window's staging buffer after the body: its one whole-block store of the body's value of the input blocks. -/
def out4_5 (x0 : Vec F S5000x128 .f32) (x1 : Vec F S5000x128 .f32) (x2 : Vec F S128x128 .f32) (x3 : Vec F S128x128 .f32) (x4 : Vec F S1x128 .f32) : Vec F S5000x128 .f32 :=
  View.canon [⟨(Rect.unit (s := S5000x128) ![0, 0] S5000x128.size inb_S5000x128_S5000x128_0_0), k4_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128x128) ![0, 0] S128x128.size inb_S128x128_S128x128_0_0)) (View.ld x4 (Rect.unit (s := S1x128) ![0, 0] S1x128.size inb_S1x128_S1x128_0_0))⟩]

/-- The one store covers the whole block. -/
theorem cover4_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__concat_linear_relu_kernel i arg1 harg1 arg2 harg2 arg3 harg3 arg4 harg4 arg5 harg5 arg6 harg6) K := by
  simp only [cc4__concat_linear_relu_kernel_eq_skeleton]; unfold cc4__concat_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The pipeline's proof data on core c: the arrays as the region finds them; after the body at point t each input's
    buffer holds its block and the output's the stored value of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KBRegion5.lean ====
/-
  Region 5 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.Kernel.Launch
import proofs.«159471_j32143535243482_1_alg».proof.Proof.Gen.Kernel.Skeleton
import proofs.«159471_j32143535243482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/- An input window's current staging buffer holds its block at every point, whether or not it was fetched there
   (an unfetched window's block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body: its one whole-block store of the body's value of the input blocks. -/
def out5_5 (x0 : Vec F S5000x128 .f32) (x1 : Vec F S5000x128 .f32) (x2 : Vec F S128x128 .f32) (x3 : Vec F S128x128 .f32) (x4 : Vec F S1x128 .f32) : Vec F S5000x128 .f32 :=
  View.canon [⟨(Rect.unit (s := S5000x128) ![0, 0] S5000x128.size inb_S5000x128_S5000x128_0_0), k5_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128x128) ![0, 0] S128x128.size inb_S128x128_S128x128_0_0)) (View.ld x4 (Rect.unit (s := S1x128) ![0, 0] S1x128.size inb_S1x128_S1x128_0_0))⟩]

/-- The one store covers the whole block. -/
theorem cover5_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__concat_linear_relu_kernel i arg1 harg1 arg2 harg2 arg3 harg3 arg4 harg4 arg5 harg5 arg6 harg6) K := by
  simp only [cc5__concat_linear_relu_kernel_eq_skeleton]; unfold cc5__concat_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The pipeline's proof data on core c: the arrays as the region finds them; after the body at point t each input's
    buffer holds its block and the output's the stored value of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KBRun.lean ====
/-
  The whole run of the program: the buffer contents at every boundary between two items of @main, as a fold from
  the launch memory (a host stretch applies its operations; a region leaves its input arrays as entered and its
  output array at the fold of its blocks' write-backs); each region and each host stretch as a segment between
  consecutive boundaries; and the run itself: every weakly fair execution terminates, faults nowhere, and ends
  with every unscoped buffer at the last boundary's contents. The argument arrays are written by nothing on the way.
-/
import proofs.«159471_j32143535243482_1_alg».proof.Proof.KBRegion0
import proofs.«159471_j32143535243482_1_alg».proof.Proof.KBRegion1
import proofs.«159471_j32143535243482_1_alg».proof.Proof.KBRegion2
import proofs.«159471_j32143535243482_1_alg».proof.Proof.KBRegion3
import proofs.«159471_j32143535243482_1_alg».proof.Proof.KBRegion4
import proofs.«159471_j32143535243482_1_alg».proof.Proof.KBRegion5
import proofs.«159471_j32143535243482_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves (inputs as entered, the output's write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves region 0 as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

/-- After region 1: its arrays at what the pipeline leaves (inputs as entered, the output's write-backs folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves region 1 as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

/-- After the host stretch hostOps2. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
/-- A buffer the stretch does not write keeps its contents. -/
theorem W3_keep (c : Dev nD) (r : Ref sig .tc) (h : r ∉ hostOps2_W) : W3 m ρ c (Proc.devRef .tc r) = W2 m ρ c (Proc.devRef .tc r) :=
  StableHlo.after_of_writes_sub hostOps2 _ hostOps2_writes h

/-- After region 2: its arrays at what the pipeline leaves (inputs as entered, the output's write-backs folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- An input window's array leaves region 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-- After the host stretch hostOps3. -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- A buffer the stretch does not write keeps its contents. -/
theorem W5_keep (c : Dev nD) (r : Ref sig .tc) (h : r ∉ hostOps3_W) : W5 m ρ c (Proc.devRef .tc r) = W4 m ρ c (Proc.devRef .tc r) :=
  StableHlo.after_of_writes_sub hostOps3 _ hostOps3_writes h

/-- After region 3: its arrays at what the pipeline leaves (inputs as entered, the output's write-backs folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)
/-- An input window's array leaves region 3 as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (A_eq3 (V5 m ρ) c w))

/-- After the host stretch hostOps4. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
/-- A buffer the stretch does not write keeps its contents. -/
theorem W7_keep (c : Dev nD) (r : Ref sig .tc) (h : r ∉ hostOps4_W) : W7 m ρ c (Proc.devRef .tc r) = W6 m ρ c (Proc.devRef .tc r) :=
  StableHlo.after_of_writes_sub hostOps4 _ hostOps4_writes h

/-- After region 4: its arrays at what the pipeline leaves (inputs as entered, the output's write-backs folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- An input window's array leaves region 4 as it entered. -/
theorem W8_in (c : Dev nD) (w : Fin cfg4.W) (hw : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hw _).trans (A_eq4 (V7 m ρ) c w))

/-- After the host stretch hostOps5. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- A buffer the stretch does not write keeps its contents. -/
theorem W9_keep (c : Dev nD) (r : Ref sig .tc) (h : r ∉ hostOps5_W) : W9 m ρ c (Proc.devRef .tc r) = W8 m ρ c (Proc.devRef .tc r) :=
  StableHlo.after_of_writes_sub hostOps5 _ hostOps5_writes h

/-- After region 5: its arrays at what the pipeline leaves (inputs as entered, the output's write-backs folded), every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- An input window's array leaves region 5 as it entered. -/
theorem W10_in (c : Dev nD) (w : Fin cfg5.W) (hw : (cfg5.win w).isOut = false) :
    W10 m ρ c (Proc.devRef .tc (Pipeline.arrRef spec5 w)) = W9 m ρ c (Proc.devRef .tc (Pipeline.arrRef spec5 w)) :=
  (W10_arr m ρ c w).trans (((dat5 (V9 m ρ) c).arrAt_in w hw _).trans (A_eq5 (V9 m ρ) c w))

/-- After the host stretch hostOps6. -/
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
/-- A buffer the stretch does not write keeps its contents. -/
theorem W11_keep (c : Dev nD) (r : Ref sig .tc) (h : r ∉ hostOps6_W) : W11 m ρ c (Proc.devRef .tc r) = W10 m ρ c (Proc.devRef .tc r) :=
  StableHlo.after_of_writes_sub hostOps6 _ hostOps6_writes h

/-! ## The arguments end as launched -/

theorem W11_main_arg0 (c : Dev nD) : W11 m ρ c (Proc.devRef .tc main_arg0) = m ((c : Thread nD τ).loc main_arg0) :=
  (W11_keep m ρ c main_arg0 (by decide)).trans <| (W10_of_ne m ρ c main_arg0 (by decide)).trans <| (W9_keep m ρ c main_arg0 (by decide)).trans <| (W8_in m ρ c 0 rfl).trans <| (W7_keep m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_in m ρ c 0 rfl).trans <| (W1_of_ne m ρ c main_arg0 (by decide)).trans rfl
theorem W11_main_arg1 (c : Dev nD) : W11 m ρ c (Proc.devRef .tc main_arg1) = m ((c : Thread nD τ).loc main_arg1) :=
  (W11_keep m ρ c main_arg1 (by decide)).trans <| (W10_in m ρ c 0 rfl).trans <| (W9_keep m ρ c main_arg1 (by decide)).trans <| (W8_of_ne m ρ c main_arg1 (by decide)).trans <| (W7_keep m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_in m ρ c 0 rfl).trans rfl
theorem W11_main_arg2 (c : Dev nD) : W11 m ρ c (Proc.devRef .tc main_arg2) = m ((c : Thread nD τ).loc main_arg2) :=
  (W11_keep m ρ c main_arg2 (by decide)).trans <| (W10_of_ne m ρ c main_arg2 (by decide)).trans <| (W9_keep m ρ c main_arg2 (by decide)).trans <| (W8_of_ne m ρ c main_arg2 (by decide)).trans <| (W7_keep m ρ c main_arg2 (by decide)).trans <| (W6_of_ne m ρ c main_arg2 (by decide)).trans <| (W5_keep m ρ c main_arg2 (by decide)).trans <| (W4_of_ne m ρ c main_arg2 (by decide)).trans <| (W3_keep m ρ c main_arg2 (by decide)).trans <| (W2_of_ne m ρ c main_arg2 (by decide)).trans <| (W1_of_ne m ρ c main_arg2 (by decide)).trans rfl
theorem W11_main_arg3 (c : Dev nD) : W11 m ρ c (Proc.devRef .tc main_arg3) = m ((c : Thread nD τ).loc main_arg3) :=
  (W11_keep m ρ c main_arg3 (by decide)).trans <| (W10_of_ne m ρ c main_arg3 (by decide)).trans <| (W9_keep m ρ c main_arg3 (by decide)).trans <| (W8_of_ne m ρ c main_arg3 (by decide)).trans <| (W7_keep m ρ c main_arg3 (by decide)).trans <| (W6_of_ne m ρ c main_arg3 (by decide)).trans <| (W5_keep m ρ c main_arg3 (by decide)).trans <| (W4_of_ne m ρ c main_arg3 (by decide)).trans <| (W3_keep m ρ c main_arg3 (by decide)).trans <| (W2_of_ne m ρ c main_arg3 (by decide)).trans <| (W1_of_ne m ρ c main_arg3 (by decide)).trans rfl
theorem W11_main_arg4 (c : Dev nD) : W11 m ρ c (Proc.devRef .tc main_arg4) = m ((c : Thread nD τ).loc main_arg4) :=
  (W11_keep m ρ c main_arg4 (by decide)).trans <| (W10_of_ne m ρ c main_arg4 (by decide)).trans <| (W9_keep m ρ c main_arg4 (by decide)).trans <| (W8_of_ne m ρ c main_arg4 (by decide)).trans <| (W7_keep m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_of_ne m ρ c main_arg4 (by decide)).trans rfl
theorem W11_main_arg5 (c : Dev nD) : W11 m ρ c (Proc.devRef .tc main_arg5) = m ((c : Thread nD τ).loc main_arg5) :=
  (W11_keep m ρ c main_arg5 (by decide)).trans <| (W10_of_ne m ρ c main_arg5 (by decide)).trans <| (W9_keep m ρ c main_arg5 (by decide)).trans <| (W8_of_ne m ρ c main_arg5 (by decide)).trans <| (W7_keep m ρ c main_arg5 (by decide)).trans <| (W6_of_ne m ρ c main_arg5 (by decide)).trans <| (W5_keep m ρ c main_arg5 (by decide)).trans <| (W4_of_ne m ρ c main_arg5 (by decide)).trans <| (W3_keep m ρ c main_arg5 (by decide)).trans <| (W2_of_ne m ρ c main_arg5 (by decide)).trans <| (W1_in m ρ c 1 rfl).trans rfl
theorem W11_main_arg6 (c : Dev nD) : W11 m ρ c (Proc.devRef .tc main_arg6) = m ((c : Thread nD τ).loc main_arg6) :=
  (W11_keep m ρ c main_arg6 (by decide)).trans <| (W10_of_ne m ρ c main_arg6 (by decide)).trans <| (W9_keep m ρ c main_arg6 (by decide)).trans <| (W8_of_ne m ρ c main_arg6 (by decide)).trans <| (W7_keep m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_of_ne m ρ c main_arg6 (by decide)).trans rfl
theorem W11_main_arg7 (c : Dev nD) : W11 m ρ c (Proc.devRef .tc main_arg7) = m ((c : Thread nD τ).loc main_arg7) :=
  (W11_keep m ρ c main_arg7 (by decide)).trans <| (W10_of_ne m ρ c main_arg7 (by decide)).trans <| (W9_keep m ρ c main_arg7 (by decide)).trans <| (W8_of_ne m ρ c main_arg7 (by decide)).trans <| (W7_keep m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_in m ρ c 1 rfl).trans <| (W1_of_ne m ρ c main_arg7 (by decide)).trans rfl
theorem W11_main_arg8 (c : Dev nD) : W11 m ρ c (Proc.devRef .tc main_arg8) = m ((c : Thread nD τ).loc main_arg8) :=
  (W11_keep m ρ c main_arg8 (by decide)).trans <| (W10_of_ne m ρ c main_arg8 (by decide)).trans <| (W9_keep m ρ c main_arg8 (by decide)).trans <| (W8_of_ne m ρ c main_arg8 (by decide)).trans <| (W7_keep m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_of_ne m ρ c main_arg8 (by decide)).trans <| (W1_of_ne m ρ c main_arg8 (by decide)).trans rfl
theorem W11_main_arg9 (c : Dev nD) : W11 m ρ c (Proc.devRef .tc main_arg9) = m ((c : Thread nD τ).loc main_arg9) :=
  (W11_keep m ρ c main_arg9 (by decide)).trans <| (W10_of_ne m ρ c main_arg9 (by decide)).trans <| (W9_keep m ρ c main_arg9 (by decide)).trans <| (W8_of_ne m ρ c main_arg9 (by decide)).trans <| (W7_keep m ρ c main_arg9 (by decide)).trans <| (W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_of_ne m ρ c main_arg9 (by decide)).trans rfl
theorem W11_main_arg10 (c : Dev nD) : W11 m ρ c (Proc.devRef .tc main_arg10) = m ((c : Thread nD τ).loc main_arg10) :=
  (W11_keep m ρ c main_arg10 (by decide)).trans <| (W10_of_ne m ρ c main_arg10 (by decide)).trans <| (W9_keep m ρ c main_arg10 (by decide)).trans <| (W8_of_ne m ρ c main_arg10 (by decide)).trans <| (W7_keep m ρ c main_arg10 (by decide)).trans <| (W6_of_ne m ρ c main_arg10 (by decide)).trans <| (W5_keep m ρ c main_arg10 (by decide)).trans <| (W4_of_ne m ρ c main_arg10 (by decide)).trans <| (W3_keep m ρ c main_arg10 (by decide)).trans <| (W2_of_ne m ρ c main_arg10 (by decide)).trans <| (W1_of_ne m ρ c main_arg10 (by decide)).trans rfl
theorem W11_main_arg11 (c : Dev nD) : W11 m ρ c (Proc.devRef .tc main_arg11) = m ((c : Thread nD τ).loc main_arg11) :=
  (W11_keep m ρ c main_arg11 (by decide)).trans <| (W10_of_ne m ρ c main_arg11 (by decide)).trans <| (W9_keep m ρ c main_arg11 (by decide)).trans <| (W8_of_ne m ρ c main_arg11 (by decide)).trans <| (W7_keep m ρ c main_arg11 (by decide)).trans <| (W6_of_ne m ρ c main_arg11 (by decide)).trans <| (W5_keep m ρ c main_arg11 (by decide)).trans <| (W4_of_ne m ρ c main_arg11 (by decide)).trans <| (W3_keep m ρ c main_arg11 (by decide)).trans <| (W2_of_ne m ρ c main_arg11 (by decide)).trans <| (W1_of_ne m ρ c main_arg11 (by decide)).trans rfl
theorem W11_main_arg12 (c : Dev nD) : W11 m ρ c (Proc.devRef .tc main_arg12) = m ((c : Thread nD τ).loc main_arg12) :=
  (W11_keep m ρ c main_arg12 (by decide)).trans <| (W10_of_ne m ρ c main_arg12 (by decide)).trans <| (W9_keep m ρ c main_arg12 (by decide)).trans <| (W8_of_ne m ρ c main_arg12 (by decide)).trans <| (W7_keep m ρ c main_arg12 (by decide)).trans <| (W6_of_ne m ρ c main_arg12 (by decide)).trans <| (W5_keep m ρ c main_arg12 (by decide)).trans <| (W4_of_ne m ρ c main_arg12 (by decide)).trans <| (W3_keep m ρ c main_arg12 (by decide)).trans <| (W2_of_ne m ρ c main_arg12 (by decide)).trans <| (W1_of_ne m ρ c main_arg12 (by decide)).trans rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V5 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at contents 0, left at contents 1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at contents 1, left at contents 2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at contents 3, left at contents 4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at contents 5, left at contents 6. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at contents 7, left at contents 8. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at contents 9, left at contents 10. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)) ]
theorem main_run (c : Dev nD) : main (F := F) c = Pipeline.Seg.run (segs m ρ) := (main_chain c).trans (by chain_rfl)

set_option backward.isDefEq.respectTransparency.types false in
/-- The run: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c)⟩) (run_all m ρ)

end Cert.Kernel.Fr

end
-- ==== Proof.KIRegion0.lean ====
/-
  Region 0 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.KernelIdeal.Launch
import proofs.«159471_j32143535243482_1_alg».proof.Proof.Gen.KernelIdeal.Skeleton
import proofs.«159471_j32143535243482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current staging buffer holds its block at every point, whether or not it was fetched there
   (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its one whole-block store of the body's value of the input blocks. -/
def out0_2 (x0 : Vec F S5000x128 .f32) (x1 : Vec F S128x128 .f32) : Vec F S5000x128 .f32 :=
  View.canon [⟨(Rect.unit (s := S5000x128) ![0, 0] S5000x128.size inb_S5000x128_S5000x128_0_0), k0_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The one store covers the whole block. -/
theorem cover0_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body at point t each input's
    buffer holds its block and the output's the stored value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIRegion1.lean ====
/-
  Region 1 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.KernelIdeal.Launch
import proofs.«159471_j32143535243482_1_alg».proof.Proof.Gen.KernelIdeal.Skeleton
import proofs.«159471_j32143535243482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current staging buffer holds its block at every point, whether or not it was fetched there
   (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one whole-block store of the body's value of the input blocks. -/
def out1_2 (x0 : Vec F S5000x128 .f32) (x1 : Vec F S128x128 .f32) : Vec F S5000x128 .f32 :=
  View.canon [⟨(Rect.unit (s := S5000x128) ![0, 0] S5000x128.size inb_S5000x128_S5000x128_0_0), k1_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The one store covers the whole block. -/
theorem cover1_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core c: the arrays as the region finds them; after the body at point t each input's
    buffer holds its block and the output's the stored value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIRegion2.lean ====
/-
  Region 2 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.KernelIdeal.Launch
import proofs.«159471_j32143535243482_1_alg».proof.Proof.Gen.KernelIdeal.Skeleton
import proofs.«159471_j32143535243482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input window's current staging buffer holds its block at every point, whether or not it was fetched there
   (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body: its one whole-block store of the body's value of the input blocks. -/
def out2_2 (x0 : Vec F S5000x128 .f32) (x1 : Vec F S1x128 .f32) : Vec F S5000x128 .f32 :=
  View.canon [⟨(Rect.unit (s := S5000x128) ![0, 0] S5000x128.size inb_S5000x128_S5000x128_0_0), k2_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The one store covers the whole block. -/
theorem cover2_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_leaky_relu_kernel i arg1 harg1 arg2 harg2 arg3 harg3) K := by
  simp only [cc2__bias_leaky_relu_kernel_eq_skeleton]; unfold cc2__bias_leaky_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core c: the arrays as the region finds them; after the body at point t each input's
    buffer holds its block and the output's the stored value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRegion3.lean ====
/-
  Region 3 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.KernelIdeal.Launch
import proofs.«159471_j32143535243482_1_alg».proof.Proof.Gen.KernelIdeal.Skeleton
import proofs.«159471_j32143535243482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/- An input window's current staging buffer holds its block at every point, whether or not it was fetched there
   (an unfetched window's block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one whole-block store of the body's value of the input blocks. -/
def out3_2 (x0 : Vec F S5000x128 .f32) (x1 : Vec F S1x128 .f32) : Vec F S5000x128 .f32 :=
  View.canon [⟨(Rect.unit (s := S5000x128) ![0, 0] S5000x128.size inb_S5000x128_S5000x128_0_0), k3_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The one store covers the whole block. -/
theorem cover3_2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_leaky_relu_kernel i arg1 harg1 arg2 harg2 arg3 harg3) K := by
  simp only [cc3__bias_leaky_relu_kernel_eq_skeleton]; unfold cc3__bias_leaky_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core c: the arrays as the region finds them; after the body at point t each input's
    buffer holds its block and the output's the stored value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIRegion4.lean ====
/-
  Region 4 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.KernelIdeal.Launch
import proofs.«159471_j32143535243482_1_alg».proof.Proof.Gen.KernelIdeal.Skeleton
import proofs.«159471_j32143535243482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/- An input window's current staging buffer holds its block at every point, whether or not it was fetched there
   (an unfetched window's block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output window's staging buffer after the body: its one whole-block store of the body's value of the input blocks. -/
def out4_5 (x0 : Vec F S5000x128 .f32) (x1 : Vec F S5000x128 .f32) (x2 : Vec F S128x128 .f32) (x3 : Vec F S128x128 .f32) (x4 : Vec F S1x128 .f32) : Vec F S5000x128 .f32 :=
  View.canon [⟨(Rect.unit (s := S5000x128) ![0, 0] S5000x128.size inb_S5000x128_S5000x128_0_0), k4_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128x128) ![0, 0] S128x128.size inb_S128x128_S128x128_0_0)) (View.ld x4 (Rect.unit (s := S1x128) ![0, 0] S1x128.size inb_S1x128_S1x128_0_0))⟩]

/-- The one store covers the whole block. -/
theorem cover4_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__concat_linear_relu_kernel i arg1 harg1 arg2 harg2 arg3 harg3 arg4 harg4 arg5 harg5 arg6 harg6) K := by
  simp only [cc4__concat_linear_relu_kernel_eq_skeleton]; unfold cc4__concat_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The pipeline's proof data on core c: the arrays as the region finds them; after the body at point t each input's
    buffer holds its block and the output's the stored value of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KIRegion5.lean ====
/-
  Region 5 of the program (one row-block kernel over 20 blocks of 5000 rows), at the buffer contents V the region is
  entered with: each window's block at a grid point is read off its array; after the body the output window's
  staging buffer holds the body's stored value computed from the input blocks; the body meets its obligation at
  every point.
-/
import proofs.«159471_j32143535243482_1_alg».proof.Proof.Gen.KernelIdeal.Launch
import proofs.«159471_j32143535243482_1_alg».proof.Proof.Gen.KernelIdeal.Skeleton
import proofs.«159471_j32143535243482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/- An input window's current staging buffer holds its block at every point, whether or not it was fetched there
   (an unfetched window's block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body: its one whole-block store of the body's value of the input blocks. -/
def out5_5 (x0 : Vec F S5000x128 .f32) (x1 : Vec F S5000x128 .f32) (x2 : Vec F S128x128 .f32) (x3 : Vec F S128x128 .f32) (x4 : Vec F S1x128 .f32) : Vec F S5000x128 .f32 :=
  View.canon [⟨(Rect.unit (s := S5000x128) ![0, 0] S5000x128.size inb_S5000x128_S5000x128_0_0), k5_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128x128) ![0, 0] S128x128.size inb_S128x128_S128x128_0_0)) (View.ld x4 (Rect.unit (s := S1x128) ![0, 0] S1x128.size inb_S1x128_S1x128_0_0))⟩]

/-- The one store covers the whole block. -/
theorem cover5_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: the inputs are left as read and the output buffer holds the stored value. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__concat_linear_relu_kernel i arg1 harg1 arg2 harg2 arg3 harg3 arg4 harg4 arg5 harg5 arg6 harg6) K := by
  simp only [cc5__concat_linear_relu_kernel_eq_skeleton]; unfold cc5__concat_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The pipeline's proof data on core c: the arrays as the region finds them; after the body at point t each input's
    buffer holds its block and the output's the stored value of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KIRun.lean ====
/-
  The whole run of the program: the buffer contents at every boundary between two items of @main, as a fold from
  the launch memory (a host stretch applies its operations; a region leaves its input arrays as entered and its
  output array at the fold of its blocks' write-backs); each region and each host stretch as a segment between
  consecutive boundaries; and the run itself: every weakly fair execution terminates, faults nowhere, and ends
  with every unscoped buffer at the last boundary's contents. The argument arrays are written by nothing on the way.
-/
import proofs.«159471_j32143535243482_1_alg».proof.Proof.KIRegion0
import proofs.«159471_j32143535243482_1_alg».proof.Proof.KIRegion1
import proofs.«159471_j32143535243482_1_alg».proof.Proof.KIRegion2
import proofs.«159471_j32143535243482_1_alg».proof.Proof.KIRegion3
import proofs.«159471_j32143535243482_1_alg».proof.Proof.KIRegion4
import proofs.«159471_j32143535243482_1_alg».proof.Proof.KIRegion5
import proofs.«159471_j32143535243482_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves (inputs as entered, the output's write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves region 0 as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

/-- After region 1: its arrays at what the pipeline leaves (inputs as entered, the output's write-backs folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves region 1 as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

/-- After the host stretch hostOps2. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
/-- A buffer the stretch does not write keeps its contents. -/
theorem W3_keep (c : Dev nD) (r : Ref sig .tc) (h : r ∉ hostOps2_W) : W3 m ρ c (Proc.devRef .tc r) = W2 m ρ c (Proc.devRef .tc r) :=
  StableHlo.after_of_writes_sub hostOps2 _ hostOps2_writes h

/-- After region 2: its arrays at what the pipeline leaves (inputs as entered, the output's write-backs folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- An input window's array leaves region 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-- After the host stretch hostOps3. -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- A buffer the stretch does not write keeps its contents. -/
theorem W5_keep (c : Dev nD) (r : Ref sig .tc) (h : r ∉ hostOps3_W) : W5 m ρ c (Proc.devRef .tc r) = W4 m ρ c (Proc.devRef .tc r) :=
  StableHlo.after_of_writes_sub hostOps3 _ hostOps3_writes h

/-- After region 3: its arrays at what the pipeline leaves (inputs as entered, the output's write-backs folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)
/-- An input window's array leaves region 3 as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (A_eq3 (V5 m ρ) c w))

/-- After the host stretch hostOps4. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
/-- A buffer the stretch does not write keeps its contents. -/
theorem W7_keep (c : Dev nD) (r : Ref sig .tc) (h : r ∉ hostOps4_W) : W7 m ρ c (Proc.devRef .tc r) = W6 m ρ c (Proc.devRef .tc r) :=
  StableHlo.after_of_writes_sub hostOps4 _ hostOps4_writes h

/-- After region 4: its arrays at what the pipeline leaves (inputs as entered, the output's write-backs folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- An input window's array leaves region 4 as it entered. -/
theorem W8_in (c : Dev nD) (w : Fin cfg4.W) (hw : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hw _).trans (A_eq4 (V7 m ρ) c w))

/-- After the host stretch hostOps5. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- A buffer the stretch does not write keeps its contents. -/
theorem W9_keep (c : Dev nD) (r : Ref sig .tc) (h : r ∉ hostOps5_W) : W9 m ρ c (Proc.devRef .tc r) = W8 m ρ c (Proc.devRef .tc r) :=
  StableHlo.after_of_writes_sub hostOps5 _ hostOps5_writes h

/-- After region 5: its arrays at what the pipeline leaves (inputs as entered, the output's write-backs folded), every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- An input window's array leaves region 5 as it entered. -/
theorem W10_in (c : Dev nD) (w : Fin cfg5.W) (hw : (cfg5.win w).isOut = false) :
    W10 m ρ c (Proc.devRef .tc (Pipeline.arrRef spec5 w)) = W9 m ρ c (Proc.devRef .tc (Pipeline.arrRef spec5 w)) :=
  (W10_arr m ρ c w).trans (((dat5 (V9 m ρ) c).arrAt_in w hw _).trans (A_eq5 (V9 m ρ) c w))

/-- After the host stretch hostOps6. -/
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
/-- A buffer the stretch does not write keeps its contents. -/
theorem W11_keep (c : Dev nD) (r : Ref sig .tc) (h : r ∉ hostOps6_W) : W11 m ρ c (Proc.devRef .tc r) = W10 m ρ c (Proc.devRef .tc r) :=
  StableHlo.after_of_writes_sub hostOps6 _ hostOps6_writes h

/-! ## The arguments end as launched -/

theorem W11_main_arg0 (c : Dev nD) : W11 m ρ c (Proc.devRef .tc main_arg0) = m ((c : Thread nD τ).loc main_arg0) :=
  (W11_keep m ρ c main_arg0 (by decide)).trans <| (W10_of_ne m ρ c main_arg0 (by decide)).trans <| (W9_keep m ρ c main_arg0 (by decide)).trans <| (W8_in m ρ c 0 rfl).trans <| (W7_keep m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_in m ρ c 0 rfl).trans <| (W1_of_ne m ρ c main_arg0 (by decide)).trans rfl
theorem W11_main_arg1 (c : Dev nD) : W11 m ρ c (Proc.devRef .tc main_arg1) = m ((c : Thread nD τ).loc main_arg1) :=
  (W11_keep m ρ c main_arg1 (by decide)).trans <| (W10_in m ρ c 0 rfl).trans <| (W9_keep m ρ c main_arg1 (by decide)).trans <| (W8_of_ne m ρ c main_arg1 (by decide)).trans <| (W7_keep m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_in m ρ c 0 rfl).trans rfl
theorem W11_main_arg2 (c : Dev nD) : W11 m ρ c (Proc.devRef .tc main_arg2) = m ((c : Thread nD τ).loc main_arg2) :=
  (W11_keep m ρ c main_arg2 (by decide)).trans <| (W10_of_ne m ρ c main_arg2 (by decide)).trans <| (W9_keep m ρ c main_arg2 (by decide)).trans <| (W8_of_ne m ρ c main_arg2 (by decide)).trans <| (W7_keep m ρ c main_arg2 (by decide)).trans <| (W6_of_ne m ρ c main_arg2 (by decide)).trans <| (W5_keep m ρ c main_arg2 (by decide)).trans <| (W4_of_ne m ρ c main_arg2 (by decide)).trans <| (W3_keep m ρ c main_arg2 (by decide)).trans <| (W2_of_ne m ρ c main_arg2 (by decide)).trans <| (W1_of_ne m ρ c main_arg2 (by decide)).trans rfl
theorem W11_main_arg3 (c : Dev nD) : W11 m ρ c (Proc.devRef .tc main_arg3) = m ((c : Thread nD τ).loc main_arg3) :=
  (W11_keep m ρ c main_arg3 (by decide)).trans <| (W10_of_ne m ρ c main_arg3 (by decide)).trans <| (W9_keep m ρ c main_arg3 (by decide)).trans <| (W8_of_ne m ρ c main_arg3 (by decide)).trans <| (W7_keep m ρ c main_arg3 (by decide)).trans <| (W6_of_ne m ρ c main_arg3 (by decide)).trans <| (W5_keep m ρ c main_arg3 (by decide)).trans <| (W4_of_ne m ρ c main_arg3 (by decide)).trans <| (W3_keep m ρ c main_arg3 (by decide)).trans <| (W2_of_ne m ρ c main_arg3 (by decide)).trans <| (W1_of_ne m ρ c main_arg3 (by decide)).trans rfl
theorem W11_main_arg4 (c : Dev nD) : W11 m ρ c (Proc.devRef .tc main_arg4) = m ((c : Thread nD τ).loc main_arg4) :=
  (W11_keep m ρ c main_arg4 (by decide)).trans <| (W10_of_ne m ρ c main_arg4 (by decide)).trans <| (W9_keep m ρ c main_arg4 (by decide)).trans <| (W8_of_ne m ρ c main_arg4 (by decide)).trans <| (W7_keep m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_of_ne m ρ c main_arg4 (by decide)).trans rfl
theorem W11_main_arg5 (c : Dev nD) : W11 m ρ c (Proc.devRef .tc main_arg5) = m ((c : Thread nD τ).loc main_arg5) :=
  (W11_keep m ρ c main_arg5 (by decide)).trans <| (W10_of_ne m ρ c main_arg5 (by decide)).trans <| (W9_keep m ρ c main_arg5 (by decide)).trans <| (W8_of_ne m ρ c main_arg5 (by decide)).trans <| (W7_keep m ρ c main_arg5 (by decide)).trans <| (W6_of_ne m ρ c main_arg5 (by decide)).trans <| (W5_keep m ρ c main_arg5 (by decide)).trans <| (W4_of_ne m ρ c main_arg5 (by decide)).trans <| (W3_keep m ρ c main_arg5 (by decide)).trans <| (W2_of_ne m ρ c main_arg5 (by decide)).trans <| (W1_in m ρ c 1 rfl).trans rfl
theorem W11_main_arg6 (c : Dev nD) : W11 m ρ c (Proc.devRef .tc main_arg6) = m ((c : Thread nD τ).loc main_arg6) :=
  (W11_keep m ρ c main_arg6 (by decide)).trans <| (W10_of_ne m ρ c main_arg6 (by decide)).trans <| (W9_keep m ρ c main_arg6 (by decide)).trans <| (W8_of_ne m ρ c main_arg6 (by decide)).trans <| (W7_keep m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_of_ne m ρ c main_arg6 (by decide)).trans rfl
theorem W11_main_arg7 (c : Dev nD) : W11 m ρ c (Proc.devRef .tc main_arg7) = m ((c : Thread nD τ).loc main_arg7) :=
  (W11_keep m ρ c main_arg7 (by decide)).trans <| (W10_of_ne m ρ c main_arg7 (by decide)).trans <| (W9_keep m ρ c main_arg7 (by decide)).trans <| (W8_of_ne m ρ c main_arg7 (by decide)).trans <| (W7_keep m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_in m ρ c 1 rfl).trans <| (W1_of_ne m ρ c main_arg7 (by decide)).trans rfl
theorem W11_main_arg8 (c : Dev nD) : W11 m ρ c (Proc.devRef .tc main_arg8) = m ((c : Thread nD τ).loc main_arg8) :=
  (W11_keep m ρ c main_arg8 (by decide)).trans <| (W10_of_ne m ρ c main_arg8 (by decide)).trans <| (W9_keep m ρ c main_arg8 (by decide)).trans <| (W8_of_ne m ρ c main_arg8 (by decide)).trans <| (W7_keep m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_of_ne m ρ c main_arg8 (by decide)).trans <| (W1_of_ne m ρ c main_arg8 (by decide)).trans rfl
theorem W11_main_arg9 (c : Dev nD) : W11 m ρ c (Proc.devRef .tc main_arg9) = m ((c : Thread nD τ).loc main_arg9) :=
  (W11_keep m ρ c main_arg9 (by decide)).trans <| (W10_of_ne m ρ c main_arg9 (by decide)).trans <| (W9_keep m ρ c main_arg9 (by decide)).trans <| (W8_of_ne m ρ c main_arg9 (by decide)).trans <| (W7_keep m ρ c main_arg9 (by decide)).trans <| (W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_of_ne m ρ c main_arg9 (by decide)).trans rfl
theorem W11_main_arg10 (c : Dev nD) : W11 m ρ c (Proc.devRef .tc main_arg10) = m ((c : Thread nD τ).loc main_arg10) :=
  (W11_keep m ρ c main_arg10 (by decide)).trans <| (W10_of_ne m ρ c main_arg10 (by decide)).trans <| (W9_keep m ρ c main_arg10 (by decide)).trans <| (W8_of_ne m ρ c main_arg10 (by decide)).trans <| (W7_keep m ρ c main_arg10 (by decide)).trans <| (W6_of_ne m ρ c main_arg10 (by decide)).trans <| (W5_keep m ρ c main_arg10 (by decide)).trans <| (W4_of_ne m ρ c main_arg10 (by decide)).trans <| (W3_keep m ρ c main_arg10 (by decide)).trans <| (W2_of_ne m ρ c main_arg10 (by decide)).trans <| (W1_of_ne m ρ c main_arg10 (by decide)).trans rfl
theorem W11_main_arg11 (c : Dev nD) : W11 m ρ c (Proc.devRef .tc main_arg11) = m ((c : Thread nD τ).loc main_arg11) :=
  (W11_keep m ρ c main_arg11 (by decide)).trans <| (W10_of_ne m ρ c main_arg11 (by decide)).trans <| (W9_keep m ρ c main_arg11 (by decide)).trans <| (W8_of_ne m ρ c main_arg11 (by decide)).trans <| (W7_keep m ρ c main_arg11 (by decide)).trans <| (W6_of_ne m ρ c main_arg11 (by decide)).trans <| (W5_keep m ρ c main_arg11 (by decide)).trans <| (W4_of_ne m ρ c main_arg11 (by decide)).trans <| (W3_keep m ρ c main_arg11 (by decide)).trans <| (W2_of_ne m ρ c main_arg11 (by decide)).trans <| (W1_of_ne m ρ c main_arg11 (by decide)).trans rfl
theorem W11_main_arg12 (c : Dev nD) : W11 m ρ c (Proc.devRef .tc main_arg12) = m ((c : Thread nD τ).loc main_arg12) :=
  (W11_keep m ρ c main_arg12 (by decide)).trans <| (W10_of_ne m ρ c main_arg12 (by decide)).trans <| (W9_keep m ρ c main_arg12 (by decide)).trans <| (W8_of_ne m ρ c main_arg12 (by decide)).trans <| (W7_keep m ρ c main_arg12 (by decide)).trans <| (W6_of_ne m ρ c main_arg12 (by decide)).trans <| (W5_keep m ρ c main_arg12 (by decide)).trans <| (W4_of_ne m ρ c main_arg12 (by decide)).trans <| (W3_keep m ρ c main_arg12 (by decide)).trans <| (W2_of_ne m ρ c main_arg12 (by decide)).trans <| (W1_of_ne m ρ c main_arg12 (by decide)).trans rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V5 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at contents 0, left at contents 1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at contents 1, left at contents 2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at contents 3, left at contents 4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at contents 5, left at contents 6. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at contents 7, left at contents 8. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at contents 9, left at contents 10. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)) ]
theorem main_run (c : Dev nD) : main (F := F) c = Pipeline.Seg.run (segs m ρ) := (main_chain c).trans (by chain_rfl)

set_option backward.isDefEq.respectTransparency.types false in
/-- The run: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c)⟩) (run_all m ρ)

end Cert.KernelIdeal.Fr

end
-- ==== Proof.Spec.lean ====
/-
  The specification: what both programs compute, as whole-array functions on the extended reals, written with the
  reference's own host operations so that the reference's result is this term by reading its operations off.

  With x·w the plain matrix product, for an edge list (src, dst, val) the aggregation
  agg s src dst val = scatter-add over the edges e of val(e)·s(src(e), ·) into row dst(e) (indices wrapped when negative),
  leaky(a, b) = v if v ≥ 0 else 0.1·v with v = a + b (b a bias row),
  dense(a, c, W, b) = max([a | c]·W + b, 0) with [a | c] the two arrays joined along the feature axis, the result is the
  stack of dense(ufea, Un, Wu, bu), Un, ufea, dense(vfea, In, Wi, bi), In, vfea where
  Un = leaky(agg(vfea·W1, cols, rows, vals), b1) and In = leaky(agg(ufea·W2, rows, cols, vals), b2).
-/
import proofs.«159471_j32143535243482_1_alg».proof.ReferenceIdeal
import Idealize.ShloMosaic.PureOps.Ideal

noncomputable section

namespace Cert.Spec

open Idealize.ShloMosaic Cert.ReferenceIdeal

variable [Cert.ReferenceIdeal.Facts]
open Cert.ReferenceIdeal.Facts₀ Cert.ReferenceIdeal.Facts

/-- The matrix product x·w of a [100000,128] array with a [128,128] one. -/
def mm (x : FVec Ideal S100000x128 .f32) (w : FVec Ideal S128x128 .f32) : FVec Ideal S100000x128 .f32 :=
  Host.dotGeneral (F := Ideal) dot_S100000x128_S128x128_S100000x128_1_0_0_1_n_n none x w

/-- A row number as jnp indexing reads it: a negative one counts from the end. -/
def wrap (i : (⟨S800000, .i32⟩ : BufTy).Contents (Elt Ideal)) : (⟨S800000, .i32⟩ : BufTy).Contents (Elt Ideal) :=
  select (cmpi .slt i (broadcastInDim S800000 ![] bcast_S_S800000 (constantI S_ 32 0#32)))
    (addi i (broadcastInDim S800000 ![] bcast_S_S800000 (constantI S_ 32 100000#32))) i

/-- The messages along the edges, summed into their destination rows: row dst(e) receives val(e)·s(src(e), ·). -/
def agg (s : FVec Ideal S100000x128 .f32) (src dst : (⟨S800000, .i32⟩ : BufTy).Contents (Elt Ideal))
    (val : FVec Ideal S800000 .f32) : FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (mulf
      (Host.gather gather_S100000x128_S800000x1_S800000x128_1_0_n_n_0_1_1128 s
        (broadcastInDim S800000x1 ![0] bcast_S800000_S800000x1_0 (wrap src)))
      (broadcastInDim S800000x128 ![0, 1] bcast_S800000x1_S800000x128_0_1
        (broadcastInDim S800000x1 ![0] bcast_S800000_S800000x1_0 val)))

/-- A bias vector spread down the rows. -/
def biasRows (b : FVec Ideal S128 .f32) : FVec Ideal S100000x128 .f32 :=
  broadcastInDim S100000x128 ![0, 1] bcast_S1x128_S100000x128_0_1 (broadcastInDim S1x128 ![1] bcast_S128_S1x128_1 b)

/-- The leaky rectifier of a + b with slope 0.1 on the negative side. -/
def leaky (a : FVec Ideal S100000x128 .f32) (b : FVec Ideal S128 .f32) : FVec Ideal S100000x128 .f32 :=
  select
    (cmpf .oge (addf a (biasRows b))
      (broadcastInDim S100000x128 ![] bcast_S_S100000x128 (constant (F := Ideal) S_ .f32 0x00000000#32)))
    (addf a (biasRows b))
    (mulf (broadcastInDim S100000x128 ![] bcast_S_S100000x128 (id (constant (F := Ideal) S_ .f32 0x3DCCCCCD#32)))
      (addf a (biasRows b)))

/-- The dense layer on the two arrays joined along the feature axis, followed by the maximum with zero. -/
def dense (a c : FVec Ideal S100000x128 .f32) (W : FVec Ideal S256x128 .f32) (b : FVec Ideal S128 .f32) :
    FVec Ideal S100000x128 .f32 :=
  maximumf
    (addf
      (Host.dotGeneral (F := Ideal) dot_S100000x256_S256x128_S100000x128_1_0_0_1_n_n none
        (concatenate S100000x256 1 [⟨S100000x128, a⟩, ⟨S100000x128, c⟩] concatenates_S100000x128_S100000x128_S100000x256_d1) W)
      (biasRows b))
    (broadcastInDim S100000x128 ![] bcast_S_S100000x128 (constant (F := Ideal) S_ .f32 0x00000000#32))

/-- One [100000,128] array as a one-slab [1,100000,128] array. -/
def slab (a : FVec Ideal S100000x128 .f32) : FVec Ideal S1x100000x128 .f32 :=
  broadcastInDim S1x100000x128 ![1, 2] bcast_S100000x128_S1x100000x128_1_2 a

/-- Six arrays stacked along a new leading axis. -/
def stack6 (a0 a1 a2 a3 a4 a5 : FVec Ideal S100000x128 .f32) : FVec Ideal S6x100000x128 .f32 :=
  concatenate S6x100000x128 0 [⟨S1x100000x128, slab a0⟩, ⟨S1x100000x128, slab a1⟩, ⟨S1x100000x128, slab a2⟩,
    ⟨S1x100000x128, slab a3⟩, ⟨S1x100000x128, slab a4⟩, ⟨S1x100000x128, slab a5⟩]
    concatenates_S1x100000x128_S1x100000x128_S1x100000x128_S1x100000x128_S1x100000x128_S1x100000x128_S6x100000x128_d0

/-- The user-side activations. -/
def userN (vfea : FVec Ideal S100000x128 .f32) (rows cols : (⟨S800000, .i32⟩ : BufTy).Contents (Elt Ideal))
    (vals : FVec Ideal S800000 .f32) (W1 : FVec Ideal S128x128 .f32) (b1 : FVec Ideal S128 .f32) : FVec Ideal S100000x128 .f32 :=
  leaky (agg (mm vfea W1) cols rows vals) b1

/-- The item-side activations. -/
def itemN (ufea : FVec Ideal S100000x128 .f32) (rows cols : (⟨S800000, .i32⟩ : BufTy).Contents (Elt Ideal))
    (vals : FVec Ideal S800000 .f32) (W2 : FVec Ideal S128x128 .f32) (b2 : FVec Ideal S128 .f32) : FVec Ideal S100000x128 .f32 :=
  leaky (agg (mm ufea W2) rows cols vals) b2

/-- The whole result. -/
def out (ufea vfea : FVec Ideal S100000x128 .f32) (rows cols : (⟨S800000, .i32⟩ : BufTy).Contents (Elt Ideal))
    (vals : FVec Ideal S800000 .f32) (W1 : FVec Ideal S128x128 .f32) (b1 : FVec Ideal S128 .f32)
    (W2 : FVec Ideal S128x128 .f32) (b2 : FVec Ideal S128 .f32) (Wu : FVec Ideal S256x128 .f32) (bu : FVec Ideal S128 .f32)
    (Wi : FVec Ideal S256x128 .f32) (bi : FVec Ideal S128 .f32) : FVec Ideal S6x100000x128 .f32 :=
  stack6 (dense ufea (userN vfea rows cols vals W1 b1) Wu bu) (userN vfea rows cols vals W1 b1) ufea
    (dense vfea (itemN ufea rows cols vals W2 b2) Wi bi) (itemN ufea rows cols vals W2 b2) vfea

end Cert.Spec

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«159471_j32143535243482_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.PayloadMm.lean ====
/-
  The matrix-product body, entry by entry.

  One 5000-row block of x times the whole 128 x 128 weight: the stored value at (p, q) is the sum over k of
  x0(p, k) * w0(k, q).  Narrowing the operands to a shorter format changes nothing over the extended reals, and the
  accumulator is zero.  When the block holds rows 5000 t, ..., 5000 t + 4999 of a [100000, 128] array X and w0 is w,
  this is entry (5000 t + p, q) of the product X * w.
-/
import proofs.«159471_j32143535243482_1_alg».proof.Proof.Spec
import proofs.«159471_j32143535243482_1_alg».proof.Proof.Gen.KernelIdeal.Skeleton
import proofs.«159471_j32143535243482_1_alg».proof.Proof.LibPlainDotFormats
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.LibPlainDot

variable [Cert.KernelIdeal.Facts] [Cert.ReferenceIdeal.Facts]

/-- The block product's dimension numbers are those of a plain [5000,128] x [128,128] product. -/
theorem plain_block : Plain Cert.KernelIdeal.dot_S5000x128_S128x128_S5000x128_1_0_0_1_n_n :=
  ⟨rfl, rfl, rfl, rfl, rfl, rfl⟩

/-- The whole product's dimension numbers are those of a plain [100000,128] x [128,128] product. -/
theorem plain_whole : Plain Cert.ReferenceIdeal.dot_S100000x128_S128x128_S100000x128_1_0_0_1_n_n :=
  ⟨rfl, rfl, rfl, rfl, rfl, rfl⟩

/-- The whole product at an entry. -/
theorem mm_apply (X : FVec Ideal Cert.ReferenceIdeal.S100000x128 .f32) (w : FVec Ideal Cert.ReferenceIdeal.S128x128 .f32)
    (n : Fin 100000) (q : Fin 128) :
    Cert.Spec.mm X w (ix2 n q) = ∑ k : Fin 128, X (ix2 n k) * w (ix2 k q) :=
  plain_whole.dotGeneral_apply none .single X w n q

/-- The block product at an entry. -/
theorem block_product_apply {φ₁ φ₂ : FTy} (l : FVec Ideal Cert.KernelIdeal.S5000x128 φ₁) (r : FVec Ideal Cert.KernelIdeal.S128x128 φ₂)
    (p : Fin 5000) (q : Fin 128) :
    matmul (F := Ideal) Cert.KernelIdeal.dot_S5000x128_S128x128_S5000x128_1_0_0_1_n_n none l r
        (constant (F := Ideal) Cert.KernelIdeal.S5000x128 .f32 0x00000000#32) (ix2 p q)
      = ∑ k : Fin 128, l (ix2 p k) * r (ix2 k q) :=
  plain_block.matmul_zero_apply_formats none l r p q

/-- The first matrix-product body: block t of X times w is rows 5000 t, ... of X * w. -/
theorem mm_block (X : FVec Ideal Cert.ReferenceIdeal.S100000x128 .f32) (w : FVec Ideal Cert.ReferenceIdeal.S128x128 .f32)
    (x0 : Vec Ideal Cert.KernelIdeal.S5000x128 .f32) (w0 : Vec Ideal Cert.KernelIdeal.S128x128 .f32) (t : ℕ) (ht : t < 20)
    (hx : ∀ (p : Fin 5000) (k : Fin 128), x0 (ix2 p k) = X (ix2 (⟨5000 * t + p.val, by omega⟩ : Fin 100000) k))
    (hw : ∀ k q : Fin 128, w0 (ix2 k q) = w (ix2 k q)) (p : Fin 5000) (q : Fin 128) :
    Cert.KernelIdeal.Gen.k0_pay1 (F := Ideal) x0 w0 (ix2 p q)
      = Cert.Spec.mm X w (ix2 (⟨5000 * t + p.val, by omega⟩ : Fin 100000) q) := by
  unfold Cert.KernelIdeal.Gen.k0_pay1
  refine (block_product_apply _ _ p q).trans ?_
  rw [mm_apply]
  exact Finset.sum_congr rfl fun k _ => by rw [truncf_apply, truncf_apply, hx p k, hw k q]

/-- The second matrix-product body, the same text. -/
theorem mm_block1 (X : FVec Ideal Cert.ReferenceIdeal.S100000x128 .f32) (w : FVec Ideal Cert.ReferenceIdeal.S128x128 .f32)
    (x0 : Vec Ideal Cert.KernelIdeal.S5000x128 .f32) (w0 : Vec Ideal Cert.KernelIdeal.S128x128 .f32) (t : ℕ) (ht : t < 20)
    (hx : ∀ (p : Fin 5000) (k : Fin 128), x0 (ix2 p k) = X (ix2 (⟨5000 * t + p.val, by omega⟩ : Fin 100000) k))
    (hw : ∀ k q : Fin 128, w0 (ix2 k q) = w (ix2 k q)) (p : Fin 5000) (q : Fin 128) :
    Cert.KernelIdeal.Gen.k1_pay1 (F := Ideal) x0 w0 (ix2 p q)
      = Cert.Spec.mm X w (ix2 (⟨5000 * t + p.val, by omega⟩ : Fin 100000) q) :=
  mm_block X w x0 w0 t ht hx hw p q

end Cert.Bridge

end
-- ==== Proof.KIValue0.lean ====
/-
  Region 0's output array after the region: the 20 row blocks written back are the 20 consecutive groups of 5000 rows of
  the matrix product of the two operand arrays, and together they fill the array.
-/
import proofs.«159471_j32143535243482_1_alg».proof.Proof.KIRegion0
import proofs.«159471_j32143535243482_1_alg».proof.Proof.PayloadMm
import proofs.«159471_j32143535243482_1_alg».proof.Proof.Gen.ReferenceIdeal
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: block t of the row-blocked windows is row block t; the weight window is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed0_eq (c : Dev nD) (t : Fin cfg0.N) :
    (dat0 V c).flushed 2 t = ((cfg0.win 2).blk t).view.read (Elt Ideal) (Cert.Spec.mm (V c main_arg1) (V c main_arg5)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx_facts0 t
  have htN : t.val < 20 := by have := t.isLt; have hN : cfg0.N = 20 := N_0; omega
  funext j
  obtain ⟨p, q, rfl⟩ : ∃ (p : Fin 5000) (q : Fin 128), j = ix2 p q := ⟨j 0, j 1, eq_ix2 j⟩
  refine (Cert.Bridge.mm_block (V c main_arg1) (V c main_arg5) (iblk0 V c 0 t) (iblk0 V c 1 t) t.val htN ?_ ?_ p q).trans ?_
  · intro p' k
    show V c main_arg1 (((cfg0.win 0).blk t).view.emb (ix2 p' k)) = _
    refine congrArg (V c main_arg1) ?_
    funext a; apply Fin.ext
    match a with
    | ⟨0, _⟩ => show win0_0.index t (0 : Fin 2) * 5000 + 1 * p'.val = 5000 * t.val + p'.val; omega
    | ⟨1, _⟩ => show win0_0.index t (1 : Fin 2) * 128 + 1 * k.val = k.val; omega
  · intro k q'
    show V c main_arg5 (((cfg0.win 1).blk t).view.emb (ix2 k q')) = _
    refine congrArg (V c main_arg5) ?_
    funext a; apply Fin.ext
    match a with
    | ⟨0, _⟩ => show win0_1.index t (0 : Fin 2) * 128 + 1 * k.val = k.val; omega
    | ⟨1, _⟩ => show win0_1.index t (1 : Fin 2) * 128 + 1 * q'.val = q'.val; omega
  · show _ = Cert.Spec.mm (V c main_arg1) (V c main_arg5) (((cfg0.win 2).blk t).view.emb (ix2 p q))
    refine congrArg (Cert.Spec.mm (V c main_arg1) (V c main_arg5)) ?_
    funext a; apply Fin.ext
    match a with
    | ⟨0, _⟩ => show 5000 * t.val + p.val = win0_2.index t (0 : Fin 2) * 5000 + 1 * p.val; omega
    | ⟨1, _⟩ => show q.val = win0_2.index t (1 : Fin 2) * 128 + 1 * q.val; omega

/-- An index of the output array is in point t's block iff its row is among the block's 5000 rows. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every index is in the block of the point its row's block number names. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the product of the operand arrays as the region found them. -/
theorem final0 (c : Dev nD) : (dat0 V c).arrAt 2 cfg0.N = Cert.Spec.mm (V c main_arg1) (V c main_arg5) :=
  (dat0 V c).arrAt_eq_of_cover 2 (Cert.Spec.mm (V c main_arg1) (V c main_arg5)) (fun t _ => flushed0_eq V c t) (cover0)

end Cert.KernelIdeal.Val

end
-- ==== Proof.KIValue1.lean ====
/-
  Region 1's output array after the region: the 20 row blocks written back are the 20 consecutive groups of 5000 rows of
  the matrix product of the two operand arrays, and together they fill the array.
-/
import proofs.«159471_j32143535243482_1_alg».proof.Proof.KIRegion1
import proofs.«159471_j32143535243482_1_alg».proof.Proof.PayloadMm
import proofs.«159471_j32143535243482_1_alg».proof.Proof.Gen.ReferenceIdeal
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: block t of the row-blocked windows is row block t; the weight window is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product. -/
theorem flushed1_eq (c : Dev nD) (t : Fin cfg1.N) :
    (dat1 V c).flushed 2 t = ((cfg1.win 2).blk t).view.read (Elt Ideal) (Cert.Spec.mm (V c main_arg0) (V c main_arg7)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S128x128) hz1]
  obtain ⟨e0, e1, e2, e3, e4, e5⟩ := idx_facts1 t
  have htN : t.val < 20 := by have := t.isLt; have hN : cfg1.N = 20 := N_1; omega
  funext j
  obtain ⟨p, q, rfl⟩ : ∃ (p : Fin 5000) (q : Fin 128), j = ix2 p q := ⟨j 0, j 1, eq_ix2 j⟩
  refine (Cert.Bridge.mm_block1 (V c main_arg0) (V c main_arg7) (iblk1 V c 0 t) (iblk1 V c 1 t) t.val htN ?_ ?_ p q).trans ?_
  · intro p' k
    show V c main_arg0 (((cfg1.win 0).blk t).view.emb (ix2 p' k)) = _
    refine congrArg (V c main_arg0) ?_
    funext a; apply Fin.ext
    match a with
    | ⟨0, _⟩ => show win1_0.index t (0 : Fin 2) * 5000 + 1 * p'.val = 5000 * t.val + p'.val; omega
    | ⟨1, _⟩ => show win1_0.index t (1 : Fin 2) * 128 + 1 * k.val = k.val; omega
  · intro k q'
    show V c main_arg7 (((cfg1.win 1).blk t).view.emb (ix2 k q')) = _
    refine congrArg (V c main_arg7) ?_
    funext a; apply Fin.ext
    match a with
    | ⟨0, _⟩ => show win1_1.index t (0 : Fin 2) * 128 + 1 * k.val = k.val; omega
    | ⟨1, _⟩ => show win1_1.index t (1 : Fin 2) * 128 + 1 * q'.val = q'.val; omega
  · show _ = Cert.Spec.mm (V c main_arg0) (V c main_arg7) (((cfg1.win 2).blk t).view.emb (ix2 p q))
    refine congrArg (Cert.Spec.mm (V c main_arg0) (V c main_arg7)) ?_
    funext a; apply Fin.ext
    match a with
    | ⟨0, _⟩ => show 5000 * t.val + p.val = win1_2.index t (0 : Fin 2) * 5000 + 1 * p.val; omega
    | ⟨1, _⟩ => show q.val = win1_2.index t (1 : Fin 2) * 128 + 1 * q.val; omega

/-- An index of the output array is in point t's block iff its row is among the block's 5000 rows. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v1).slice (win1_2.rect t)).set ↔ _
  rw [View.set_slice_whole, Rect.mem_set_unit]
  exact Iff.rfl

/-- Every index is in the block of the point its row's block number names. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨e0, e1, e2, e3, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region is the product of the operand arrays as the region found them. -/
theorem final1 (c : Dev nD) : (dat1 V c).arrAt 2 cfg1.N = Cert.Spec.mm (V c main_arg0) (V c main_arg7) :=
  (dat1 V c).arrAt_eq_of_cover 2 (Cert.Spec.mm (V c main_arg0) (V c main_arg7)) (fun t _ => flushed1_eq V c t) (cover1)

end Cert.KernelIdeal.Val

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.PayloadLeaky.lean ====
/-
  The bias + leaky-rectifier body, entry by entry.

  With v = a(p, q) + b(q), the stored value is v when v ≥ 0 and v * c otherwise, c the single-precision word nearest
  0.1; the specification writes c * v.  Multiplication of extended reals is commutative, the comparison and the
  constant are the same on both sides, so the two agree at every entry.
-/
import proofs.«159471_j32143535243482_1_alg».proof.Proof.Spec
import proofs.«159471_j32143535243482_1_alg».proof.Proof.Gen.KernelIdeal.Skeleton
import proofs.«159471_j32143535243482_1_alg».proof.Proof.LibRowLayout
import proofs.«159471_j32143535243482_1_alg».proof.Proof.LibRowBcast
import proofs.«159471_j32143535243482_1_alg».proof.Proof.LibJoinedRows
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx

variable [Cert.KernelIdeal.Facts] [Cert.ReferenceIdeal.Facts]

/-- The rectifier on one extended real: v when v ≥ 0, else c * v, with zero and c kept as their words. -/
def leaky1 (v : EReal) : EReal :=
  Scalar.select (FloatOps.cmpf (F := Ideal) (φ := .f32) .oge v (Ideal.ofBits .f32 0x00000000#32)) v
    (Ideal.ofBits .f32 0x3DCCCCCD#32 * v)

/-- A bias vector spread down the rows reads its entry q at every row. -/
theorem biasRows_apply (b : FVec Ideal Cert.ReferenceIdeal.S128 .f32) (n : Fin 100000) (q : Fin 128) :
    Cert.Spec.biasRows b (ix2 n q) = b (ix1 q) :=
  Cert.LibRowBcast.bcast_vec_rows_apply _ _ b n q

/-- A scalar word spread over the whole array reads that word everywhere. -/
theorem splat_apply (w : BitVec 32) (n : Fin 100000) (q : Fin 128) :
    broadcastInDim Cert.ReferenceIdeal.S100000x128 ![] Cert.ReferenceIdeal.Facts₀.bcast_S_S100000x128
        (constant (F := Ideal) Cert.ReferenceIdeal.S_ .f32 w) (ix2 n q) = Ideal.ofBits .f32 w :=
  Cert.LibJoinedRows.bcast_scalar_apply _ _ _

/-- The specification's rectifier at an entry. -/
theorem leaky_apply (A : FVec Ideal Cert.ReferenceIdeal.S100000x128 .f32) (b : FVec Ideal Cert.ReferenceIdeal.S128 .f32)
    (n : Fin 100000) (q : Fin 128) :
    Cert.Spec.leaky A b (ix2 n q) = leaky1 (A (ix2 n q) + b (ix1 q)) := by
  unfold Cert.Spec.leaky leaky1
  rw [select_apply, cmpf_apply, mulf_apply, addf_apply, biasRows_apply, splat_apply]
  exact congrArg _ (congrArg (· * _) (splat_apply _ n q))

/-- A one-row block spread over the 5000 rows of a block reads the row's entry q. -/
theorem rowBlock_apply (b0 : Vec Ideal Cert.KernelIdeal.S1x128 .f32) (p : Fin 5000) (q : Fin 128) :
    broadcastTo Cert.KernelIdeal.S5000x128
        (shapeCast Cert.KernelIdeal.S1x128 b0 Cert.KernelIdeal.Facts₀.shapeCasts_S1x128_S1x128)
        Cert.KernelIdeal.Facts₀.broadcasts_S1x128_S5000x128 (ix2 p q) = b0 (ix2 (0 : Fin 1) q) := by
  rw [shapeCast_self]
  exact Cert.LibRowLayout.broadcastTo_1b_ab_apply b0 _ p q

/-- The body's stored value at an entry, in terms of the loaded blocks. -/
theorem leaky_pay_apply (a0 : Vec Ideal Cert.KernelIdeal.S5000x128 .f32) (b0 : Vec Ideal Cert.KernelIdeal.S1x128 .f32)
    (p : Fin 5000) (q : Fin 128) :
    Cert.KernelIdeal.Gen.k2_pay1 (F := Ideal) a0 b0 (ix2 p q) = leaky1 (a0 (ix2 p q) + b0 (ix2 (0 : Fin 1) q)) := by
  unfold Cert.KernelIdeal.Gen.k2_pay1 leaky1
  rw [select_apply, cmpf_apply, mulf_apply, addf_apply, shapeCast_self, rowBlock_apply, broadcast_apply, broadcast_apply]
  exact congrArg _ (mul_comm _ _)

/-- The first rectifier body: block t of A with the bias row b is rows 5000 t, ... of leaky(A, b). -/
theorem leaky_block (A : FVec Ideal Cert.ReferenceIdeal.S100000x128 .f32) (b : FVec Ideal Cert.ReferenceIdeal.S128 .f32)
    (a0 : Vec Ideal Cert.KernelIdeal.S5000x128 .f32) (b0 : Vec Ideal Cert.KernelIdeal.S1x128 .f32) (t : ℕ) (ht : t < 20)
    (ha : ∀ (p : Fin 5000) (k : Fin 128), a0 (ix2 p k) = A (ix2 (⟨5000 * t + p.val, by omega⟩ : Fin 100000) k))
    (hb : ∀ q : Fin 128, b0 (ix2 (0 : Fin 1) q) = b (ix1 q)) (p : Fin 5000) (q : Fin 128) :
    Cert.KernelIdeal.Gen.k2_pay1 (F := Ideal) a0 b0 (ix2 p q)
      = Cert.Spec.leaky A b (ix2 (⟨5000 * t + p.val, by omega⟩ : Fin 100000) q) := by
  rw [leaky_pay_apply, leaky_apply, ha p q, hb q]

/-- The second rectifier body, the same text. -/
theorem leaky_block3 (A : FVec Ideal Cert.ReferenceIdeal.S100000x128 .f32) (b : FVec Ideal Cert.ReferenceIdeal.S128 .f32)
    (a0 : Vec Ideal Cert.KernelIdeal.S5000x128 .f32) (b0 : Vec Ideal Cert.KernelIdeal.S1x128 .f32) (t : ℕ) (ht : t < 20)
    (ha : ∀ (p : Fin 5000) (k : Fin 128), a0 (ix2 p k) = A (ix2 (⟨5000 * t + p.val, by omega⟩ : Fin 100000) k))
    (hb : ∀ q : Fin 128, b0 (ix2 (0 : Fin 1) q) = b (ix1 q)) (p : Fin 5000) (q : Fin 128) :
    Cert.KernelIdeal.Gen.k3_pay1 (F := Ideal) a0 b0 (ix2 p q)
      = Cert.Spec.leaky A b (ix2 (⟨5000 * t + p.val, by omega⟩ : Fin 100000) q) :=
  leaky_block A b a0 b0 t ht ha hb p q

end Cert.Bridge

end
-- ==== Proof.KIValue2.lean ====
/-
  Region 2's output array after the region: the 20 row blocks written back are the 20 consecutive groups of 5000 rows of
  the leaky rectifier of the operand array plus the bias row, and together they fill the array.
-/
import proofs.«159471_j32143535243482_1_alg».proof.Proof.KIRegion2
import proofs.«159471_j32143535243482_1_alg».proof.Proof.PayloadLeaky
import proofs.«159471_j32143535243482_1_alg».proof.Proof.Gen.ReferenceIdeal
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: block t of the row-blocked windows is row block t; the bias window is the whole one-row array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the rectified array, b being the bias the one-row window's array holds. -/
theorem flushed2_eq (c : Dev nD) (b : FVec Ideal Cert.ReferenceIdeal.S128 .f32)
    (hb : ∀ q : Fin 128, V c main_v28 (ix2 (0 : Fin 1) q) = b (ix1 q)) (t : Fin cfg2.N) :
    (dat2 V c).flushed 2 t = ((cfg2.win 2).blk t).view.read (Elt Ideal) (Cert.Spec.leaky (V c main_v14) b) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S1x128) hz2]
  obtain ⟨e0, e1, e2, e3, e4, e5⟩ := idx_facts2 t
  have htN : t.val < 20 := by have := t.isLt; have hN : cfg2.N = 20 := N_2; omega
  funext j
  obtain ⟨p, q, rfl⟩ : ∃ (p : Fin 5000) (q : Fin 128), j = ix2 p q := ⟨j 0, j 1, eq_ix2 j⟩
  refine (Cert.Bridge.leaky_block (V c main_v14) b (iblk2 V c 0 t) (iblk2 V c 1 t) t.val htN ?_ ?_ p q).trans ?_
  · intro p' k
    show V c main_v14 (((cfg2.win 0).blk t).view.emb (ix2 p' k)) = _
    refine congrArg (V c main_v14) ?_
    funext a; apply Fin.ext
    match a with
    | ⟨0, _⟩ => show win2_0.index t (0 : Fin 2) * 5000 + 1 * p'.val = 5000 * t.val + p'.val; omega
    | ⟨1, _⟩ => show win2_0.index t (1 : Fin 2) * 128 + 1 * k.val = k.val; omega
  ·
    intro q'
    refine Eq.trans ?_ (hb q')
    show V c main_v28 (((cfg2.win 1).blk t).view.emb (ix2 (0 : Fin 1) q')) = _
    refine congrArg (V c main_v28) ?_
    funext a; apply Fin.ext
    match a with
    | ⟨0, _⟩ => show win2_1.index t (0 : Fin 2) * 1 + 1 * (0 : Fin 1).val = (0 : Fin 1).val; simp only [Fin.val_zero]; omega
    | ⟨1, _⟩ => show win2_1.index t (1 : Fin 2) * 128 + 1 * q'.val = q'.val; omega
  · show _ = Cert.Spec.leaky (V c main_v14) b (((cfg2.win 2).blk t).view.emb (ix2 p q))
    refine congrArg (Cert.Spec.leaky (V c main_v14) b) ?_
    funext a; apply Fin.ext
    match a with
    | ⟨0, _⟩ => show 5000 * t.val + p.val = win2_2.index t (0 : Fin 2) * 5000 + 1 * p.val; omega
    | ⟨1, _⟩ => show q.val = win2_2.index t (1 : Fin 2) * 128 + 1 * q.val; omega

/-- An index of the output array is in point t's block iff its row is among the block's 5000 rows. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v29).slice (win2_2.rect t)).set ↔ _
  rw [View.set_slice_whole, Rect.mem_set_unit]
  exact Iff.rfl

/-- Every index is in the block of the point its row's block number names. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by omega⟩
  have hfacts := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region. -/
theorem final2 (c : Dev nD) (b : FVec Ideal Cert.ReferenceIdeal.S128 .f32)
    (hb : ∀ q : Fin 128, V c main_v28 (ix2 (0 : Fin 1) q) = b (ix1 q)) :
    (dat2 V c).arrAt 2 cfg2.N = Cert.Spec.leaky (V c main_v14) b :=
  (dat2 V c).arrAt_eq_of_cover 2 (Cert.Spec.leaky (V c main_v14) b) (fun t _ => flushed2_eq V c b hb t) (cover2)

end Cert.KernelIdeal.Val

end
-- ==== Proof.KIValue3.lean ====
/-
  Region 3's output array after the region: the 20 row blocks written back are the 20 consecutive groups of 5000 rows of
  the leaky rectifier of the operand array plus the bias row, and together they fill the array.
-/
import proofs.«159471_j32143535243482_1_alg».proof.Proof.KIRegion3
import proofs.«159471_j32143535243482_1_alg».proof.Proof.PayloadLeaky
import proofs.«159471_j32143535243482_1_alg».proof.Proof.Gen.ReferenceIdeal
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: block t of the row-blocked windows is row block t; the bias window is the whole one-row array. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the rectified array, b being the bias the one-row window's array holds. -/
theorem flushed3_eq (c : Dev nD) (b : FVec Ideal Cert.ReferenceIdeal.S128 .f32)
    (hb : ∀ q : Fin 128, V c main_v30 (ix2 (0 : Fin 1) q) = b (ix1 q)) (t : Fin cfg3.N) :
    (dat3 V c).flushed 2 t = ((cfg3.win 2).blk t).view.read (Elt Ideal) (Cert.Spec.leaky (V c main_v27) b) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S1x128) hz3]
  obtain ⟨e0, e1, e2, e3, e4, e5⟩ := idx_facts3 t
  have htN : t.val < 20 := by have := t.isLt; have hN : cfg3.N = 20 := N_3; omega
  funext j
  obtain ⟨p, q, rfl⟩ : ∃ (p : Fin 5000) (q : Fin 128), j = ix2 p q := ⟨j 0, j 1, eq_ix2 j⟩
  refine (Cert.Bridge.leaky_block3 (V c main_v27) b (iblk3 V c 0 t) (iblk3 V c 1 t) t.val htN ?_ ?_ p q).trans ?_
  · intro p' k
    show V c main_v27 (((cfg3.win 0).blk t).view.emb (ix2 p' k)) = _
    refine congrArg (V c main_v27) ?_
    funext a; apply Fin.ext
    match a with
    | ⟨0, _⟩ => show win3_0.index t (0 : Fin 2) * 5000 + 1 * p'.val = 5000 * t.val + p'.val; omega
    | ⟨1, _⟩ => show win3_0.index t (1 : Fin 2) * 128 + 1 * k.val = k.val; omega
  ·
    intro q'
    refine Eq.trans ?_ (hb q')
    show V c main_v30 (((cfg3.win 1).blk t).view.emb (ix2 (0 : Fin 1) q')) = _
    refine congrArg (V c main_v30) ?_
    funext a; apply Fin.ext
    match a with
    | ⟨0, _⟩ => show win3_1.index t (0 : Fin 2) * 1 + 1 * (0 : Fin 1).val = (0 : Fin 1).val; simp only [Fin.val_zero]; omega
    | ⟨1, _⟩ => show win3_1.index t (1 : Fin 2) * 128 + 1 * q'.val = q'.val; omega
  · show _ = Cert.Spec.leaky (V c main_v27) b (((cfg3.win 2).blk t).view.emb (ix2 p q))
    refine congrArg (Cert.Spec.leaky (V c main_v27) b) ?_
    funext a; apply Fin.ext
    match a with
    | ⟨0, _⟩ => show 5000 * t.val + p.val = win3_2.index t (0 : Fin 2) * 5000 + 1 * p.val; omega
    | ⟨1, _⟩ => show q.val = win3_2.index t (1 : Fin 2) * 128 + 1 * q.val; omega

/-- An index of the output array is in point t's block iff its row is among the block's 5000 rows. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v31).slice (win3_2.rect t)).set ↔ _
  rw [View.set_slice_whole, Rect.mem_set_unit]
  exact Iff.rfl

/-- Every index is in the block of the point its row's block number names. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by omega⟩
  have hfacts := idx_facts3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region. -/
theorem final3 (c : Dev nD) (b : FVec Ideal Cert.ReferenceIdeal.S128 .f32)
    (hb : ∀ q : Fin 128, V c main_v30 (ix2 (0 : Fin 1) q) = b (ix1 q)) :
    (dat3 V c).arrAt 2 cfg3.N = Cert.Spec.leaky (V c main_v27) b :=
  (dat3 V c).arrAt_eq_of_cover 2 (Cert.Spec.leaky (V c main_v27) b) (fun t _ => flushed3_eq V c b hb t) (cover3)

end Cert.KernelIdeal.Val

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.PayloadDense.lean ====
/-
  The joined dense layer followed by the maximum with zero, entry by entry.

  The specification joins a and c along the feature axis into a [100000, 256] array and multiplies by the
  [256, 128] weight W; the body multiplies a block of a by the upper half of W, the same block of c by the lower
  half, and adds.  A sum over the 256 joined columns is the sum over the first 128, where the joined array is a, plus
  the sum over the last 128, where it is c: addition of extended reals is commutative and associative, nothing more
  is used.  The bias row and the maximum with zero are then the same on both sides.
-/
import proofs.«159471_j32143535243482_1_alg».proof.Proof.Spec
import proofs.«159471_j32143535243482_1_alg».proof.Proof.Gen.KernelIdeal.Skeleton
import proofs.«159471_j32143535243482_1_alg».proof.Proof.LibPlainDotFormats
import proofs.«159471_j32143535243482_1_alg».proof.Proof.LibConcatCols
import proofs.«159471_j32143535243482_1_alg».proof.Proof.LibJoinedRows
import proofs.«159471_j32143535243482_1_alg».proof.Proof.PayloadMm
import proofs.«159471_j32143535243482_1_alg».proof.Proof.PayloadLeaky
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.LibPlainDot

variable [Cert.KernelIdeal.Facts] [Cert.ReferenceIdeal.Facts]

/-- One entry of the layer from its pieces: both half-sums, the bias entry, then the maximum with zero (kept as its word). -/
def dense1 (s₁ s₂ β : EReal) : EReal := max ((s₁ + s₂) + β) (Ideal.ofBits .f32 0x00000000#32)

/-- The joined product's dimension numbers are those of a plain [100000,256] x [256,128] product. -/
theorem plain_joined : Plain Cert.ReferenceIdeal.dot_S100000x256_S256x128_S100000x128_1_0_0_1_n_n :=
  ⟨rfl, rfl, rfl, rfl, rfl, rfl⟩

/-- The joined product at an entry: a sum over the 256 joined columns. -/
theorem joined_product_apply (J : FVec Ideal Cert.ReferenceIdeal.S100000x256 .f32) (W : FVec Ideal Cert.ReferenceIdeal.S256x128 .f32)
    (n : Fin 100000) (q : Fin 128) :
    Host.dotGeneral (F := Ideal) Cert.ReferenceIdeal.dot_S100000x256_S256x128_S100000x128_1_0_0_1_n_n none J W (ix2 n q)
      = ∑ k : Fin 256, J (ix2 n k) * W (ix2 k q) :=
  plain_joined.dotGeneral_apply none .single J W n q

/-- In its first 128 columns the joined array is a. -/
theorem joined_left (A C : FVec Ideal Cert.ReferenceIdeal.S100000x128 .f32) (n : Fin 100000) (k : Fin 128) :
    concatenate Cert.ReferenceIdeal.S100000x256 1 [⟨Cert.ReferenceIdeal.S100000x128, A⟩, ⟨Cert.ReferenceIdeal.S100000x128, C⟩]
        Cert.ReferenceIdeal.Facts₀.concatenates_S100000x128_S100000x128_S100000x256_d1 (ix2 n (⟨k.val, by omega⟩ : Fin 256))
      = A (ix2 n k) :=
  Cert.LibConcatCols.concat_cols_left A C _ n k _ rfl

/-- In its last 128 columns the joined array is c. -/
theorem joined_right (A C : FVec Ideal Cert.ReferenceIdeal.S100000x128 .f32) (n : Fin 100000) (k : Fin 128) :
    concatenate Cert.ReferenceIdeal.S100000x256 1 [⟨Cert.ReferenceIdeal.S100000x128, A⟩, ⟨Cert.ReferenceIdeal.S100000x128, C⟩]
        Cert.ReferenceIdeal.Facts₀.concatenates_S100000x128_S100000x128_S100000x256_d1 (ix2 n (⟨128 + k.val, by omega⟩ : Fin 256))
      = C (ix2 n k) :=
  Cert.LibConcatCols.concat_cols_right A C _ n k _ rfl

/-- The specification's layer at an entry: the sum over the joined columns split at column 128. -/
theorem dense_apply (A C : FVec Ideal Cert.ReferenceIdeal.S100000x128 .f32) (W : FVec Ideal Cert.ReferenceIdeal.S256x128 .f32)
    (b : FVec Ideal Cert.ReferenceIdeal.S128 .f32) (n : Fin 100000) (q : Fin 128) :
    Cert.Spec.dense A C W b (ix2 n q)
      = dense1 (∑ k : Fin 128, A (ix2 n k) * W (ix2 (⟨k.val, by omega⟩ : Fin 256) q))
          (∑ k : Fin 128, C (ix2 n k) * W (ix2 (⟨128 + k.val, by omega⟩ : Fin 256) q)) (b (ix1 q)) := by
  unfold Cert.Spec.dense dense1
  rw [maximumf_apply, addf_apply, biasRows_apply, splat_apply, joined_product_apply,
    Cert.LibJoinedRows.sum_rows_split (E1 := 128) (E2 := 128) rfl]
  simp only [joined_left, joined_right]

/-- The body's stored value at an entry, in terms of the loaded blocks. -/
theorem dense_pay_apply (a0 c0 : Vec Ideal Cert.KernelIdeal.S5000x128 .f32) (w1 w2 : Vec Ideal Cert.KernelIdeal.S128x128 .f32)
    (b0 : Vec Ideal Cert.KernelIdeal.S1x128 .f32) (p : Fin 5000) (q : Fin 128) :
    Cert.KernelIdeal.Gen.k4_pay1 (F := Ideal) a0 c0 w1 w2 b0 (ix2 p q)
      = dense1 (∑ k : Fin 128, a0 (ix2 p k) * w1 (ix2 k q)) (∑ k : Fin 128, c0 (ix2 p k) * w2 (ix2 k q))
          (b0 (ix2 (0 : Fin 1) q)) := by
  unfold Cert.KernelIdeal.Gen.k4_pay1 dense1
  rw [maximumf_apply, addf_apply, addf_apply, rowBlock_apply, broadcast_apply, block_product_apply, block_product_apply,
    shapeCast_self, shapeCast_self, shapeCast_self]
  rfl

/-- The first layer body: block t of a and of c, the two halves of W and the bias row give rows 5000 t, ... of dense(a, c, W, b). -/
theorem dense_block (A C : FVec Ideal Cert.ReferenceIdeal.S100000x128 .f32) (W : FVec Ideal Cert.ReferenceIdeal.S256x128 .f32)
    (b : FVec Ideal Cert.ReferenceIdeal.S128 .f32) (a0 c0 : Vec Ideal Cert.KernelIdeal.S5000x128 .f32)
    (w1 w2 : Vec Ideal Cert.KernelIdeal.S128x128 .f32) (b0 : Vec Ideal Cert.KernelIdeal.S1x128 .f32) (t : ℕ) (ht : t < 20)
    (ha : ∀ (p : Fin 5000) (k : Fin 128), a0 (ix2 p k) = A (ix2 (⟨5000 * t + p.val, by omega⟩ : Fin 100000) k))
    (hc : ∀ (p : Fin 5000) (k : Fin 128), c0 (ix2 p k) = C (ix2 (⟨5000 * t + p.val, by omega⟩ : Fin 100000) k))
    (hw1 : ∀ k q : Fin 128, w1 (ix2 k q) = W (ix2 (⟨k.val, by omega⟩ : Fin 256) q))
    (hw2 : ∀ k q : Fin 128, w2 (ix2 k q) = W (ix2 (⟨128 + k.val, by omega⟩ : Fin 256) q))
    (hb : ∀ q : Fin 128, b0 (ix2 (0 : Fin 1) q) = b (ix1 q)) (p : Fin 5000) (q : Fin 128) :
    Cert.KernelIdeal.Gen.k4_pay1 (F := Ideal) a0 c0 w1 w2 b0 (ix2 p q)
      = Cert.Spec.dense A C W b (ix2 (⟨5000 * t + p.val, by omega⟩ : Fin 100000) q) := by
  rw [dense_pay_apply, dense_apply, hb q]
  congr 1
  · exact Finset.sum_congr rfl fun k _ => by rw [ha p k, hw1 k q]
  · exact Finset.sum_congr rfl fun k _ => by rw [hc p k, hw2 k q]

/-- The second layer body, the same text. -/
theorem dense_block5 (A C : FVec Ideal Cert.ReferenceIdeal.S100000x128 .f32) (W : FVec Ideal Cert.ReferenceIdeal.S256x128 .f32)
    (b : FVec Ideal Cert.ReferenceIdeal.S128 .f32) (a0 c0 : Vec Ideal Cert.KernelIdeal.S5000x128 .f32)
    (w1 w2 : Vec Ideal Cert.KernelIdeal.S128x128 .f32) (b0 : Vec Ideal Cert.KernelIdeal.S1x128 .f32) (t : ℕ) (ht : t < 20)
    (ha : ∀ (p : Fin 5000) (k : Fin 128), a0 (ix2 p k) = A (ix2 (⟨5000 * t + p.val, by omega⟩ : Fin 100000) k))
    (hc : ∀ (p : Fin 5000) (k : Fin 128), c0 (ix2 p k) = C (ix2 (⟨5000 * t + p.val, by omega⟩ : Fin 100000) k))
    (hw1 : ∀ k q : Fin 128, w1 (ix2 k q) = W (ix2 (⟨k.val, by omega⟩ : Fin 256) q))
    (hw2 : ∀ k q : Fin 128, w2 (ix2 k q) = W (ix2 (⟨128 + k.val, by omega⟩ : Fin 256) q))
    (hb : ∀ q : Fin 128, b0 (ix2 (0 : Fin 1) q) = b (ix1 q)) (p : Fin 5000) (q : Fin 128) :
    Cert.KernelIdeal.Gen.k5_pay1 (F := Ideal) a0 c0 w1 w2 b0 (ix2 p q)
      = Cert.Spec.dense A C W b (ix2 (⟨5000 * t + p.val, by omega⟩ : Fin 100000) q) :=
  dense_block A C W b a0 c0 w1 w2 b0 t ht ha hc hw1 hw2 hb p q

end Cert.Bridge

end
-- ==== Proof.KIValue4.lean ====
/-
  Region 4's output array after the region: the 20 row blocks written back are the 20 consecutive groups of 5000 rows of
  the dense layer on the two operand arrays joined along the feature axis, and together they fill the array.
-/
import proofs.«159471_j32143535243482_1_alg».proof.Proof.KIRegion4
import proofs.«159471_j32143535243482_1_alg».proof.Proof.PayloadDense
import proofs.«159471_j32143535243482_1_alg».proof.Proof.Gen.ReferenceIdeal
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: block t of the three row-blocked windows is row block t; the two weight windows and
    the bias window are whole arrays. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the dense layer's output, W being the [256,128] weight whose two halves the
    weight windows' arrays hold and b the bias the one-row window's array holds. -/
theorem flushed4_eq (c : Dev nD) (W : FVec Ideal Cert.ReferenceIdeal.S256x128 .f32) (b : FVec Ideal Cert.ReferenceIdeal.S128 .f32)
    (hw1 : ∀ k q : Fin 128, V c main_v32 (ix2 k q) = W (ix2 (⟨k.val, by omega⟩ : Fin 256) q))
    (hw2 : ∀ k q : Fin 128, V c main_v33 (ix2 k q) = W (ix2 (⟨128 + k.val, by omega⟩ : Fin 256) q))
    (hb : ∀ q : Fin 128, V c main_v36 (ix2 (0 : Fin 1) q) = b (ix1 q)) (t : Fin cfg4.N) :
    (dat4 V c).flushed 5 t = ((cfg4.win 5).blk t).view.read (Elt Ideal) (Cert.Spec.dense (V c main_arg0) (V c main_v29) W b) := by
  show (cfg4.win 5).cut (grid4.coords t) ((dat4 V c).after 5 t) = _
  rw [after4_5]
  unfold out4_5
  rw [View.canon_unit_zero hz4]
  simp only [View.ld_unit_zero (S := S5000x128) hz4, View.ld_unit_zero (S := S128x128) hz4, View.ld_unit_zero (S := S1x128) hz4]
  obtain ⟨e0, e1, e2, e3, e4, e5, e6, e7, e8, e9, e10, e11⟩ := idx_facts4 t
  have htN : t.val < 20 := by have := t.isLt; have hN : cfg4.N = 20 := N_4; omega
  funext j
  obtain ⟨p, q, rfl⟩ : ∃ (p : Fin 5000) (q : Fin 128), j = ix2 p q := ⟨j 0, j 1, eq_ix2 j⟩
  refine (Cert.Bridge.dense_block (V c main_arg0) (V c main_v29) W b (iblk4 V c 0 t) (iblk4 V c 1 t) (iblk4 V c 2 t) (iblk4 V c 3 t) (iblk4 V c 4 t) t.val htN ?_ ?_ ?_ ?_ ?_ p q).trans ?_
  · intro p' k
    show V c main_arg0 (((cfg4.win 0).blk t).view.emb (ix2 p' k)) = _
    refine congrArg (V c main_arg0) ?_
    funext a; apply Fin.ext
    match a with
    | ⟨0, _⟩ => show win4_0.index t (0 : Fin 2) * 5000 + 1 * p'.val = 5000 * t.val + p'.val; omega
    | ⟨1, _⟩ => show win4_0.index t (1 : Fin 2) * 128 + 1 * k.val = k.val; omega
  · intro p' k
    show V c main_v29 (((cfg4.win 1).blk t).view.emb (ix2 p' k)) = _
    refine congrArg (V c main_v29) ?_
    funext a; apply Fin.ext
    match a with
    | ⟨0, _⟩ => show win4_1.index t (0 : Fin 2) * 5000 + 1 * p'.val = 5000 * t.val + p'.val; omega
    | ⟨1, _⟩ => show win4_1.index t (1 : Fin 2) * 128 + 1 * k.val = k.val; omega
  · intro k q'
    refine Eq.trans ?_ (hw1 k q')
    show V c main_v32 (((cfg4.win 2).blk t).view.emb (ix2 k q')) = _
    refine congrArg (V c main_v32) ?_
    funext a; apply Fin.ext
    match a with
    | ⟨0, _⟩ => show win4_2.index t (0 : Fin 2) * 128 + 1 * k.val = k.val; omega
    | ⟨1, _⟩ => show win4_2.index t (1 : Fin 2) * 128 + 1 * q'.val = q'.val; omega
  · intro k q'
    refine Eq.trans ?_ (hw2 k q')
    show V c main_v33 (((cfg4.win 3).blk t).view.emb (ix2 k q')) = _
    refine congrArg (V c main_v33) ?_
    funext a; apply Fin.ext
    match a with
    | ⟨0, _⟩ => show win4_3.index t (0 : Fin 2) * 128 + 1 * k.val = k.val; omega
    | ⟨1, _⟩ => show win4_3.index t (1 : Fin 2) * 128 + 1 * q'.val = q'.val; omega
  ·
    intro q'
    refine Eq.trans ?_ (hb q')
    show V c main_v36 (((cfg4.win 4).blk t).view.emb (ix2 (0 : Fin 1) q')) = _
    refine congrArg (V c main_v36) ?_
    funext a; apply Fin.ext
    match a with
    | ⟨0, _⟩ => show win4_4.index t (0 : Fin 2) * 1 + 1 * (0 : Fin 1).val = (0 : Fin 1).val; simp only [Fin.val_zero]; omega
    | ⟨1, _⟩ => show win4_4.index t (1 : Fin 2) * 128 + 1 * q'.val = q'.val; omega
  · show _ = Cert.Spec.dense (V c main_arg0) (V c main_v29) W b (((cfg4.win 5).blk t).view.emb (ix2 p q))
    refine congrArg (Cert.Spec.dense (V c main_arg0) (V c main_v29) W b) ?_
    funext a; apply Fin.ext
    match a with
    | ⟨0, _⟩ => show 5000 * t.val + p.val = win4_5.index t (0 : Fin 2) * 5000 + 1 * p.val; omega
    | ⟨1, _⟩ => show q.val = win4_5.index t (1 : Fin 2) * 128 + 1 * q.val; omega

/-- An index of the output array is in point t's block iff its row is among the block's 5000 rows. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v37).slice (win4_5.rect t)).set ↔ _
  rw [View.set_slice_whole, Rect.mem_set_unit]
  exact Iff.rfl

/-- Every index is in the block of the point its row's block number names. -/
theorem cover4 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  let t : Fin cfg4.N := ⟨(i 0).val / 5000, by omega⟩
  have hfacts := idx_facts4 t
  have ht : t.val = (i 0).val / 5000 := rfl
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The output array after the region. -/
theorem final4 (c : Dev nD) (W : FVec Ideal Cert.ReferenceIdeal.S256x128 .f32) (b : FVec Ideal Cert.ReferenceIdeal.S128 .f32)
    (hw1 : ∀ k q : Fin 128, V c main_v32 (ix2 k q) = W (ix2 (⟨k.val, by omega⟩ : Fin 256) q))
    (hw2 : ∀ k q : Fin 128, V c main_v33 (ix2 k q) = W (ix2 (⟨128 + k.val, by omega⟩ : Fin 256) q))
    (hb : ∀ q : Fin 128, V c main_v36 (ix2 (0 : Fin 1) q) = b (ix1 q)) :
    (dat4 V c).arrAt 5 cfg4.N = Cert.Spec.dense (V c main_arg0) (V c main_v29) W b :=
  (dat4 V c).arrAt_eq_of_cover 5 (Cert.Spec.dense (V c main_arg0) (V c main_v29) W b) (fun t _ => flushed4_eq V c W b hw1 hw2 hb t) (cover4)

end Cert.KernelIdeal.Val

end
-- ==== Proof.KIValue5.lean ====
/-
  Region 5's output array after the region: the 20 row blocks written back are the 20 consecutive groups of 5000 rows of
  the dense layer on the two operand arrays joined along the feature axis, and together they fill the array.
-/
import proofs.«159471_j32143535243482_1_alg».proof.Proof.KIRegion5
import proofs.«159471_j32143535243482_1_alg».proof.Proof.PayloadDense
import proofs.«159471_j32143535243482_1_alg».proof.Proof.Gen.ReferenceIdeal
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: block t of the three row-blocked windows is row block t; the two weight windows and
    the bias window are whole arrays. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point t writes back is block t of the dense layer's output, W being the [256,128] weight whose two halves the
    weight windows' arrays hold and b the bias the one-row window's array holds. -/
theorem flushed5_eq (c : Dev nD) (W : FVec Ideal Cert.ReferenceIdeal.S256x128 .f32) (b : FVec Ideal Cert.ReferenceIdeal.S128 .f32)
    (hw1 : ∀ k q : Fin 128, V c main_v34 (ix2 k q) = W (ix2 (⟨k.val, by omega⟩ : Fin 256) q))
    (hw2 : ∀ k q : Fin 128, V c main_v35 (ix2 k q) = W (ix2 (⟨128 + k.val, by omega⟩ : Fin 256) q))
    (hb : ∀ q : Fin 128, V c main_v38 (ix2 (0 : Fin 1) q) = b (ix1 q)) (t : Fin cfg5.N) :
    (dat5 V c).flushed 5 t = ((cfg5.win 5).blk t).view.read (Elt Ideal) (Cert.Spec.dense (V c main_arg1) (V c main_v31) W b) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S128x128) hz5, View.ld_unit_zero (S := S1x128) hz5]
  obtain ⟨e0, e1, e2, e3, e4, e5, e6, e7, e8, e9, e10, e11⟩ := idx_facts5 t
  have htN : t.val < 20 := by have := t.isLt; have hN : cfg5.N = 20 := N_5; omega
  funext j
  obtain ⟨p, q, rfl⟩ : ∃ (p : Fin 5000) (q : Fin 128), j = ix2 p q := ⟨j 0, j 1, eq_ix2 j⟩
  refine (Cert.Bridge.dense_block5 (V c main_arg1) (V c main_v31) W b (iblk5 V c 0 t) (iblk5 V c 1 t) (iblk5 V c 2 t) (iblk5 V c 3 t) (iblk5 V c 4 t) t.val htN ?_ ?_ ?_ ?_ ?_ p q).trans ?_
  · intro p' k
    show V c main_arg1 (((cfg5.win 0).blk t).view.emb (ix2 p' k)) = _
    refine congrArg (V c main_arg1) ?_
    funext a; apply Fin.ext
    match a with
    | ⟨0, _⟩ => show win5_0.index t (0 : Fin 2) * 5000 + 1 * p'.val = 5000 * t.val + p'.val; omega
    | ⟨1, _⟩ => show win5_0.index t (1 : Fin 2) * 128 + 1 * k.val = k.val; omega
  · intro p' k
    show V c main_v31 (((cfg5.win 1).blk t).view.emb (ix2 p' k)) = _
    refine congrArg (V c main_v31) ?_
    funext a; apply Fin.ext
    match a with
    | ⟨0, _⟩ => show win5_1.index t (0 : Fin 2) * 5000 + 1 * p'.val = 5000 * t.val + p'.val; omega
    | ⟨1, _⟩ => show win5_1.index t (1 : Fin 2) * 128 + 1 * k.val = k.val; omega
  · intro k q'
    refine Eq.trans ?_ (hw1 k q')
    show V c main_v34 (((cfg5.win 2).blk t).view.emb (ix2 k q')) = _
    refine congrArg (V c main_v34) ?_
    funext a; apply Fin.ext
    match a with
    | ⟨0, _⟩ => show win5_2.index t (0 : Fin 2) * 128 + 1 * k.val = k.val; omega
    | ⟨1, _⟩ => show win5_2.index t (1 : Fin 2) * 128 + 1 * q'.val = q'.val; omega
  · intro k q'
    refine Eq.trans ?_ (hw2 k q')
    show V c main_v35 (((cfg5.win 3).blk t).view.emb (ix2 k q')) = _
    refine congrArg (V c main_v35) ?_
    funext a; apply Fin.ext
    match a with
    | ⟨0, _⟩ => show win5_3.index t (0 : Fin 2) * 128 + 1 * k.val = k.val; omega
    | ⟨1, _⟩ => show win5_3.index t (1 : Fin 2) * 128 + 1 * q'.val = q'.val; omega
  ·
    intro q'
    refine Eq.trans ?_ (hb q')
    show V c main_v38 (((cfg5.win 4).blk t).view.emb (ix2 (0 : Fin 1) q')) = _
    refine congrArg (V c main_v38) ?_
    funext a; apply Fin.ext
    match a with
    | ⟨0, _⟩ => show win5_4.index t (0 : Fin 2) * 1 + 1 * (0 : Fin 1).val = (0 : Fin 1).val; simp only [Fin.val_zero]; omega
    | ⟨1, _⟩ => show win5_4.index t (1 : Fin 2) * 128 + 1 * q'.val = q'.val; omega
  · show _ = Cert.Spec.dense (V c main_arg1) (V c main_v31) W b (((cfg5.win 5).blk t).view.emb (ix2 p q))
    refine congrArg (Cert.Spec.dense (V c main_arg1) (V c main_v31) W b) ?_
    funext a; apply Fin.ext
    match a with
    | ⟨0, _⟩ => show 5000 * t.val + p.val = win5_5.index t (0 : Fin 2) * 5000 + 1 * p.val; omega
    | ⟨1, _⟩ => show q.val = win5_5.index t (1 : Fin 2) * 128 + 1 * q.val; omega

/-- An index of the output array is in point t's block iff its row is among the block's 5000 rows. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v39).slice (win5_5.rect t)).set ↔ _
  rw [View.set_slice_whole, Rect.mem_set_unit]
  exact Iff.rfl

/-- Every index is in the block of the point its row's block number names. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by omega⟩
  have hfacts := idx_facts5 t
  have ht : t.val = (i 0).val / 5000 := rfl
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The output array after the region. -/
theorem final5 (c : Dev nD) (W : FVec Ideal Cert.ReferenceIdeal.S256x128 .f32) (b : FVec Ideal Cert.ReferenceIdeal.S128 .f32)
    (hw1 : ∀ k q : Fin 128, V c main_v34 (ix2 k q) = W (ix2 (⟨k.val, by omega⟩ : Fin 256) q))
    (hw2 : ∀ k q : Fin 128, V c main_v35 (ix2 k q) = W (ix2 (⟨128 + k.val, by omega⟩ : Fin 256) q))
    (hb : ∀ q : Fin 128, V c main_v38 (ix2 (0 : Fin 1) q) = b (ix1 q)) :
    (dat5 V c).arrAt 5 cfg5.N = Cert.Spec.dense (V c main_arg1) (V c main_v31) W b :=
  (dat5 V c).arrAt_eq_of_cover 5 (Cert.Spec.dense (V c main_arg1) (V c main_v31) W b) (fun t _ => flushed5_eq V c W b hw1 hw2 hb t) (cover5)

end Cert.KernelIdeal.Val

end
-- ==== Proof.LibNaryResult.lean ====
/-
  The result of a host operation over a literal family of six or of nine operand references (a concatenation of six
  or nine arrays), with each operand's contents read at that operand's own reference instead of under a binder over
  the family's index: so stated, a fold over a line of operations goes on rewriting the operands' contents, where under
  the binder the reference is no literal and no result lemma applies to it.
-/
import Idealize.ShloMosaic.Lib.StableHlo.Run

noncomputable section

namespace Idealize.ShloMosaic.StableHlo

variable {τ : Topo} {sig : RefSig} {Val : EltTy → Type}
variable {x0 x1 x2 x3 x4 x5 x6 x7 x8 y : Ref sig .tc}

/-- A host operation over a LITERAL family of 6 operand references: its result with each operand's contents read at
    that operand's own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) := by
  rw [nary_result]; congr 1; funext k; fin_cases k <;> rfl
/-- The same, stated for the simplifier (the result reference un-indexed). -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) :=
  nary6_result f hxs hy F

/-- A host operation over a LITERAL family of 9 operand references: its result with each operand's contents read at
    that operand's own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same, stated for the simplifier (the result reference un-indexed). -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Idealize.ShloMosaic.StableHlo

end
-- ==== Proof.LibAfterAppend.lean ====
/-
  The contents after two lines of host operations run one after the other are the second line's contents over the
  first line's: the fold over a concatenated list is the composition of the folds. General: nothing here depends on a
  program.
-/
import Idealize.ShloMosaic.Lib.StableHlo.Run

namespace Cert.LibAfterAppend

open Idealize.ShloMosaic Idealize.ShloMosaic.StableHlo

variable {τ : Topo} {sig : RefSig} {Val : EltTy → Type}

/-- Running `l₁` then `l₂` from contents `V` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.LibRowSlice.lean ====
/-
  A range of consecutive rows of a two-axis array, read at an entry.

  Taking `R'` consecutive rows starting at row `o` of an `[R, C]` array, with all `C` columns from column `0` — a
  unit-stride slice of a value — gives an array whose entry `(p, q)` is the original entry `(o + p, q)`.  Generic
  in the extents, the offset and the entries' type.
-/
import Idealize.ShloMosaic.Lib.Pipeline.Value
import Idealize.ShloMosaic.Lib.ValueIdx

noncomputable section

namespace Cert.LibRowSlice

open Idealize.ShloMosaic Idealize.ShloMosaic.ValueIdx

variable {α : Type}

/-- A slice of `R'` rows from row `o` (all columns) at `(p, q)` is the operand at `(o + p, q)`. -/
theorem slice_rows {R R' C : Nat} (o : Nat) (x : (⟨2, ![R, C]⟩ : Shape).Idx → α)
    (h : (⟨2, ![R, C]⟩ : Shape).Slices ![o, 0] ⟨2, ![R', C]⟩) (p : Fin R') (q : Fin C) (p' : Fin R)
    (hp : p'.val = o + p.val) :
    extractStridedSlice ⟨2, ![R', C]⟩ ![o, 0] x h (ix2 p q) = x (ix2 p' q) :=
  extractStridedSlice_apply ![o, 0] x h (ix2 p q) (ix2 p' q) fun a => by
    match a with
    | ⟨0, _⟩ => exact hp
    | ⟨1, _⟩ => show q.val = 0 + q.val; omega

/-- The same with the result's column extent named separately (`C' = C` as numbers): entry `(p, q)` is the operand
    at `(o + p, q')` for the column `q'` with the same number as `q`. -/
theorem slice_rows' {R R' C C' : Nat} (o : Nat) (x : (⟨2, ![R, C]⟩ : Shape).Idx → α)
    (h : (⟨2, ![R, C]⟩ : Shape).Slices ![o, 0] ⟨2, ![R', C']⟩) (p : Fin R') (q : Fin C') (p' : Fin R) (q' : Fin C)
    (hp : p'.val = o + p.val) (hq : q'.val = q.val) :
    extractStridedSlice ⟨2, ![R', C']⟩ ![o, 0] x h (ix2 p q) = x (ix2 p' q') :=
  extractStridedSlice_apply ![o, 0] x h (ix2 p q) (ix2 p' q') fun a => by
    match a with
    | ⟨0, _⟩ => exact hp
    | ⟨1, _⟩ => show q'.val = 0 + q.val; omega

end Cert.LibRowSlice

end
-- ==== Proof.KIHost.lean ====
/-
  The host stretches between the regions, read at the buffers the regions and the result use, over any contents Vv
  the stretch starts from: the two edge aggregations, the bias vectors viewed as one-row arrays, the two halves of
  each [256,128] weight array, and the final stack of six arrays.
-/
import proofs.«159471_j32143535243482_1_alg».proof.Proof.Gen.KernelIdeal.Launch
import proofs.«159471_j32143535243482_1_alg».proof.Proof.Gen.ReferenceIdeal
import proofs.«159471_j32143535243482_1_alg».proof.Proof.Spec
import proofs.«159471_j32143535243482_1_alg».proof.Proof.LibNaryResult
import proofs.«159471_j32143535243482_1_alg».proof.Proof.LibAfterAppend
import proofs.«159471_j32143535243482_1_alg».proof.Proof.LibRowLayout
import proofs.«159471_j32143535243482_1_alg».proof.Proof.LibRowSlice
import Idealize.ShloMosaic.Lib.StableHlo.Run
import Idealize.ShloMosaic.Lib.ValueIdx

noncomputable section

namespace Cert.KernelIdeal.Val

open Idealize.ShloMosaic Idealize.ShloMosaic.TcCoe Idealize.ShloMosaic.ValueIdx Idealize.ShloMosaic.StableHlo
open Cert.KernelIdeal Cert.KernelIdeal.Gen

variable (Vv : Valuation τ sig (Elt Ideal))

/-- The user-side aggregation: messages gathered at the column numbers, summed into the row numbers. -/
theorem read2_v14 : StableHlo.after (hostOps2 (F := Ideal)) Vv (Proc.devRef .tc main_v14)
    = Cert.Spec.agg (Vv (Proc.devRef .tc main_v0)) (Vv (Proc.devRef .tc main_arg3)) (Vv (Proc.devRef .tc main_arg2)) (Vv (Proc.devRef .tc main_arg4)) := by
  simp only [hostOps2]; after_results_simp; rfl

/-- The item-side aggregation: messages gathered at the row numbers, summed into the column numbers. -/
theorem read2_v27 : StableHlo.after (hostOps2 (F := Ideal)) Vv (Proc.devRef .tc main_v27)
    = Cert.Spec.agg (Vv (Proc.devRef .tc main_v1)) (Vv (Proc.devRef .tc main_arg2)) (Vv (Proc.devRef .tc main_arg3)) (Vv (Proc.devRef .tc main_arg4)) := by
  simp only [hostOps2]; after_results_simp; rfl

/-- The first bias as a one-row array, entry by entry. -/
theorem read2_v28 (q : Fin 128) : StableHlo.after (hostOps2 (F := Ideal)) Vv (Proc.devRef .tc main_v28) (ix2 (0 : Fin 1) q)
    = (Vv (Proc.devRef .tc main_arg6)) (ix1 q) := by
  simp only [hostOps2]; after_results_simp
  exact Cert.LibRowLayout.shapeCast_b_1b_apply _ _ 0 q

theorem read3_v30 (q : Fin 128) : StableHlo.after (hostOps3 (F := Ideal)) Vv (Proc.devRef .tc main_v30) (ix2 (0 : Fin 1) q)
    = (Vv (Proc.devRef .tc main_arg8)) (ix1 q) := by
  simp only [hostOps3]; after_results_simp
  exact Cert.LibRowLayout.shapeCast_b_1b_apply _ _ 0 q

theorem read4_v36 (q : Fin 128) : StableHlo.after (hostOps4 (F := Ideal)) Vv (Proc.devRef .tc main_v36) (ix2 (0 : Fin 1) q)
    = (Vv (Proc.devRef .tc main_arg10)) (ix1 q) := by
  simp only [hostOps4]; after_results_simp
  exact Cert.LibRowLayout.shapeCast_b_1b_apply _ _ 0 q

theorem read5_v38 (q : Fin 128) : StableHlo.after (hostOps5 (F := Ideal)) Vv (Proc.devRef .tc main_v38) (ix2 (0 : Fin 1) q)
    = (Vv (Proc.devRef .tc main_arg12)) (ix1 q) := by
  simp only [hostOps5]; after_results_simp
  exact Cert.LibRowLayout.shapeCast_b_1b_apply _ _ 0 q

/-- The upper and lower halves of the two joined-layer weight arrays. -/
theorem read4_v32 (k q : Fin 128) : StableHlo.after (hostOps4 (F := Ideal)) Vv (Proc.devRef .tc main_v32) (ix2 k q)
    = (Vv (Proc.devRef .tc main_arg9)) (ix2 (⟨k.val, by omega⟩ : Fin 256) q) := by
  simp only [hostOps4]; after_results_simp
  exact Cert.LibRowSlice.slice_rows 0 _ _ k q _ (by simp)

theorem read4_v33 (k q : Fin 128) : StableHlo.after (hostOps4 (F := Ideal)) Vv (Proc.devRef .tc main_v33) (ix2 k q)
    = (Vv (Proc.devRef .tc main_arg9)) (ix2 (⟨128 + k.val, by omega⟩ : Fin 256) q) := by
  simp only [hostOps4]; after_results_simp
  exact Cert.LibRowSlice.slice_rows 128 _ _ k q _ rfl

theorem read4_v34 (k q : Fin 128) : StableHlo.after (hostOps4 (F := Ideal)) Vv (Proc.devRef .tc main_v34) (ix2 k q)
    = (Vv (Proc.devRef .tc main_arg11)) (ix2 (⟨k.val, by omega⟩ : Fin 256) q) := by
  simp only [hostOps4]; after_results_simp
  exact Cert.LibRowSlice.slice_rows 0 _ _ k q _ (by simp)

theorem read4_v35 (k q : Fin 128) : StableHlo.after (hostOps4 (F := Ideal)) Vv (Proc.devRef .tc main_v35) (ix2 k q)
    = (Vv (Proc.devRef .tc main_arg11)) (ix2 (⟨128 + k.val, by omega⟩ : Fin 256) q) := by
  simp only [hostOps4]; after_results_simp
  exact Cert.LibRowSlice.slice_rows 128 _ _ k q _ rfl

/-- The six operations that view each array as a one-slab array. -/
def pre6 : List (HloOp τ sig (Elt Ideal)) :=
  [ StableHlo.unary main_v37 main_v40 (broadcastInDim S1x100000x128 ![1, 2] bcast_S100000x128_S1x100000x128_1_2 : (⟨S100000x128, .f32⟩ : BufTy).Contents (Elt Ideal) → (⟨S1x100000x128, .f32⟩ : BufTy).Contents (Elt Ideal)),
    StableHlo.unary main_v29 main_v41 (broadcastInDim S1x100000x128 ![1, 2] bcast_S100000x128_S1x100000x128_1_2 : (⟨S100000x128, .f32⟩ : BufTy).Contents (Elt Ideal) → (⟨S1x100000x128, .f32⟩ : BufTy).Contents (Elt Ideal)),
    StableHlo.unary main_arg0 main_v42 (broadcastInDim S1x100000x128 ![1, 2] bcast_S100000x128_S1x100000x128_1_2 : (⟨S100000x128, .f32⟩ : BufTy).Contents (Elt Ideal) → (⟨S1x100000x128, .f32⟩ : BufTy).Contents (Elt Ideal)),
    StableHlo.unary main_v39 main_v43 (broadcastInDim S1x100000x128 ![1, 2] bcast_S100000x128_S1x100000x128_1_2 : (⟨S100000x128, .f32⟩ : BufTy).Contents (Elt Ideal) → (⟨S1x100000x128, .f32⟩ : BufTy).Contents (Elt Ideal)),
    StableHlo.unary main_v31 main_v44 (broadcastInDim S1x100000x128 ![1, 2] bcast_S100000x128_S1x100000x128_1_2 : (⟨S100000x128, .f32⟩ : BufTy).Contents (Elt Ideal) → (⟨S1x100000x128, .f32⟩ : BufTy).Contents (Elt Ideal)),
    StableHlo.unary main_arg1 main_v45 (broadcastInDim S1x100000x128 ![1, 2] bcast_S100000x128_S1x100000x128_1_2 : (⟨S100000x128, .f32⟩ : BufTy).Contents (Elt Ideal) → (⟨S1x100000x128, .f32⟩ : BufTy).Contents (Elt Ideal)) ]

/-- The operation that joins the six slabs along the new leading axis. -/
def last6 : HloOp τ sig (Elt Ideal) :=
  StableHlo.nary ![main_v40, main_v41, main_v42, main_v43, main_v44, main_v45] main_v46 (fun u => concatenate S6x100000x128 0 [⟨S1x100000x128, u 0⟩, ⟨S1x100000x128, u 1⟩, ⟨S1x100000x128, u 2⟩, ⟨S1x100000x128, u 3⟩, ⟨S1x100000x128, u 4⟩, ⟨S1x100000x128, u 5⟩] concatenates_S1x100000x128_S1x100000x128_S1x100000x128_S1x100000x128_S1x100000x128_S1x100000x128_S6x100000x128_d0)

theorem hostOps6_eq : hostOps6 (F := Ideal) = pre6 ++ [last6] := rfl

theorem pre6_main_v40 : StableHlo.after pre6 Vv (Proc.devRef .tc main_v40) = Cert.Spec.slab (Vv (Proc.devRef .tc main_v37)) := by
  unfold pre6; after_results_simp; rfl
theorem pre6_main_v41 : StableHlo.after pre6 Vv (Proc.devRef .tc main_v41) = Cert.Spec.slab (Vv (Proc.devRef .tc main_v29)) := by
  unfold pre6; after_results_simp; rfl
theorem pre6_main_v42 : StableHlo.after pre6 Vv (Proc.devRef .tc main_v42) = Cert.Spec.slab (Vv (Proc.devRef .tc main_arg0)) := by
  unfold pre6; after_results_simp; rfl
theorem pre6_main_v43 : StableHlo.after pre6 Vv (Proc.devRef .tc main_v43) = Cert.Spec.slab (Vv (Proc.devRef .tc main_v39)) := by
  unfold pre6; after_results_simp; rfl
theorem pre6_main_v44 : StableHlo.after pre6 Vv (Proc.devRef .tc main_v44) = Cert.Spec.slab (Vv (Proc.devRef .tc main_v31)) := by
  unfold pre6; after_results_simp; rfl
theorem pre6_main_v45 : StableHlo.after pre6 Vv (Proc.devRef .tc main_v45) = Cert.Spec.slab (Vv (Proc.devRef .tc main_arg1)) := by
  unfold pre6; after_results_simp; rfl

/-- The joining operation over any contents W: the six slabs as W holds them, joined. -/
theorem last6_read (W : Valuation τ sig (Elt Ideal)) : StableHlo.after [last6] W (Proc.devRef .tc main_v46)
    = concatenate S6x100000x128 0 [⟨S1x100000x128, W (Proc.devRef .tc main_v40)⟩, ⟨S1x100000x128, W (Proc.devRef .tc main_v41)⟩,
        ⟨S1x100000x128, W (Proc.devRef .tc main_v42)⟩, ⟨S1x100000x128, W (Proc.devRef .tc main_v43)⟩,
        ⟨S1x100000x128, W (Proc.devRef .tc main_v44)⟩, ⟨S1x100000x128, W (Proc.devRef .tc main_v45)⟩]
        concatenates_S1x100000x128_S1x100000x128_S1x100000x128_S1x100000x128_S1x100000x128_S1x100000x128_S6x100000x128_d0 := by
  unfold last6
  simp only [after_cons, after_nil]
  rw [nary6_result]
  rfl

/-- The result: the six arrays stacked. -/
theorem read6_v46 : StableHlo.after (hostOps6 (F := Ideal)) Vv (Proc.devRef .tc main_v46)
    = Cert.Spec.stack6 (Vv (Proc.devRef .tc main_v37)) (Vv (Proc.devRef .tc main_v29)) (Vv (Proc.devRef .tc main_arg0)) (Vv (Proc.devRef .tc main_v39)) (Vv (Proc.devRef .tc main_v31)) (Vv (Proc.devRef .tc main_arg1)) := by
  rw [hostOps6_eq, Cert.LibAfterAppend.after_append, last6_read,
    pre6_main_v40, pre6_main_v41, pre6_main_v42, pre6_main_v43, pre6_main_v44, pre6_main_v45]
  rfl

end Cert.KernelIdeal.Val

end
-- ==== Proof.KIFinal.lean ====
/-
  The kernel's result as a function of its arguments. Walking the boundaries of @main from the launch: the two
  products; the two edge aggregations of them; the two rectified arrays; the two dense layers; the stack of the six
  arrays. Each region's output array is the specification's whole-array function of the region's operand arrays; each
  host stretch is read at the buffers that feed the next region; a buffer nothing writes in between keeps its contents.
-/
import proofs.«159471_j32143535243482_1_alg».proof.Proof.KIRun
import proofs.«159471_j32143535243482_1_alg».proof.Proof.KIValue0
import proofs.«159471_j32143535243482_1_alg».proof.Proof.KIValue1
import proofs.«159471_j32143535243482_1_alg».proof.Proof.KIValue2
import proofs.«159471_j32143535243482_1_alg».proof.Proof.KIValue3
import proofs.«159471_j32143535243482_1_alg».proof.Proof.KIValue4
import proofs.«159471_j32143535243482_1_alg».proof.Proof.KIValue5
import proofs.«159471_j32143535243482_1_alg».proof.Proof.KIHost

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr

variable (m : (ℓ : Loc nD τ sig) → Buf (Elt Ideal) ℓ) (ρ : Dev nD → PrngReg)

section
variable (c : Dev nD)

theorem agg_congr {s s' : FVec Ideal Cert.ReferenceIdeal.S100000x128 .f32} {i i' j j' : (⟨Cert.ReferenceIdeal.S800000, .i32⟩ : BufTy).Contents (Elt Ideal)}
    {v v' : FVec Ideal Cert.ReferenceIdeal.S800000 .f32} (h1 : s = s') (h2 : i = i') (h3 : j = j') (h4 : v = v') :
    Cert.Spec.agg s i j v = Cert.Spec.agg s' i' j' v' := by subst h1 h2 h3 h4; rfl
theorem mm_congr {x x' : FVec Ideal Cert.ReferenceIdeal.S100000x128 .f32} {w w' : FVec Ideal Cert.ReferenceIdeal.S128x128 .f32}
    (h1 : x = x') (h2 : w = w') : Cert.Spec.mm x w = Cert.Spec.mm x' w' := by subst h1 h2; rfl
theorem leaky_congr {a a' : FVec Ideal Cert.ReferenceIdeal.S100000x128 .f32} (b : FVec Ideal Cert.ReferenceIdeal.S128 .f32)
    (h1 : a = a') : Cert.Spec.leaky a b = Cert.Spec.leaky a' b := by subst h1; rfl
theorem dense_congr {a a' c₁ c₁' : FVec Ideal Cert.ReferenceIdeal.S100000x128 .f32} (W : FVec Ideal Cert.ReferenceIdeal.S256x128 .f32)
    (b : FVec Ideal Cert.ReferenceIdeal.S128 .f32) (h1 : a = a') (h2 : c₁ = c₁') : Cert.Spec.dense a c₁ W b = Cert.Spec.dense a' c₁' W b := by
  subst h1 h2; rfl
theorem stack6_congr {a0 a0' a1 a1' a2 a2' a3 a3' a4 a4' a5 a5' : FVec Ideal Cert.ReferenceIdeal.S100000x128 .f32}
    (h0 : a0 = a0') (h1 : a1 = a1') (h2 : a2 = a2') (h3 : a3 = a3') (h4 : a4 = a4') (h5 : a5 = a5') :
    Cert.Spec.stack6 a0 a1 a2 a3 a4 a5 = Cert.Spec.stack6 a0' a1' a2' a3' a4' a5' := by subst h0 h1 h2 h3 h4 h5; rfl

/-- The first product: the item features times W1. -/
theorem k_v0 : W1 m ρ c (Proc.devRef .tc main_v0) = (Cert.Spec.mm (m ((c : Thread nD τ).loc main_arg1)) (m ((c : Thread nD τ).loc main_arg5))) :=
  (W1_arr m ρ c 2).trans (final0 (V0 m ρ) c)

/-- The second product: the user features times W2. -/
theorem k_v1 : W2 m ρ c (Proc.devRef .tc main_v1) = (Cert.Spec.mm (m ((c : Thread nD τ).loc main_arg0)) (m ((c : Thread nD τ).loc main_arg7))) :=
  (W2_arr m ρ c 2).trans ((final1 (V1 m ρ) c).trans (mm_congr ((W1_of_ne m ρ c main_arg0 (by decide)).trans rfl) ((W1_of_ne m ρ c main_arg7 (by decide)).trans rfl)))

/-- The user-side aggregation. -/
theorem k_v14 : W3 m ρ c (Proc.devRef .tc main_v14) = (Cert.Spec.agg (Cert.Spec.mm (m ((c : Thread nD τ).loc main_arg1)) (m ((c : Thread nD τ).loc main_arg5))) (m ((c : Thread nD τ).loc main_arg3)) (m ((c : Thread nD τ).loc main_arg2)) (m ((c : Thread nD τ).loc main_arg4))) :=
  (read2_v14 (W2 m ρ c)).trans (agg_congr (((W2_of_ne m ρ c main_v0 (by decide)).trans rfl).trans (k_v0 m ρ c)) ((W2_of_ne m ρ c main_arg3 (by decide)).trans <| (W1_of_ne m ρ c main_arg3 (by decide)).trans rfl) ((W2_of_ne m ρ c main_arg2 (by decide)).trans <| (W1_of_ne m ρ c main_arg2 (by decide)).trans rfl) ((W2_of_ne m ρ c main_arg4 (by decide)).trans <| (W1_of_ne m ρ c main_arg4 (by decide)).trans rfl))

/-- The item-side aggregation. -/
theorem k_v27 : W3 m ρ c (Proc.devRef .tc main_v27) = (Cert.Spec.agg (Cert.Spec.mm (m ((c : Thread nD τ).loc main_arg0)) (m ((c : Thread nD τ).loc main_arg7))) (m ((c : Thread nD τ).loc main_arg2)) (m ((c : Thread nD τ).loc main_arg3)) (m ((c : Thread nD τ).loc main_arg4))) :=
  (read2_v27 (W2 m ρ c)).trans (agg_congr (k_v1 m ρ c) ((W2_of_ne m ρ c main_arg2 (by decide)).trans <| (W1_of_ne m ρ c main_arg2 (by decide)).trans rfl) ((W2_of_ne m ρ c main_arg3 (by decide)).trans <| (W1_of_ne m ρ c main_arg3 (by decide)).trans rfl) ((W2_of_ne m ρ c main_arg4 (by decide)).trans <| (W1_of_ne m ρ c main_arg4 (by decide)).trans rfl))

theorem k_v28 (q : Fin 128) : W3 m ρ c (Proc.devRef .tc main_v28) (ix2 (0 : Fin 1) q) = (m ((c : Thread nD τ).loc main_arg6)) (ix1 q) :=
  (read2_v28 (W2 m ρ c) q).trans (congrFun ((W2_of_ne m ρ c main_arg6 (by decide)).trans <| (W1_of_ne m ρ c main_arg6 (by decide)).trans rfl) (ix1 q))

/-- The user-side activations. -/
theorem k_v29 : W4 m ρ c (Proc.devRef .tc main_v29) = (Cert.Spec.leaky (Cert.Spec.agg (Cert.Spec.mm (m ((c : Thread nD τ).loc main_arg1)) (m ((c : Thread nD τ).loc main_arg5))) (m ((c : Thread nD τ).loc main_arg3)) (m ((c : Thread nD τ).loc main_arg2)) (m ((c : Thread nD τ).loc main_arg4))) (m ((c : Thread nD τ).loc main_arg6))) :=
  (W4_arr m ρ c 2).trans ((final2 (V3 m ρ) c (m ((c : Thread nD τ).loc main_arg6)) (k_v28 m ρ c)).trans (leaky_congr _ (k_v14 m ρ c)))

theorem k_v30 (q : Fin 128) : W5 m ρ c (Proc.devRef .tc main_v30) (ix2 (0 : Fin 1) q) = (m ((c : Thread nD τ).loc main_arg8)) (ix1 q) :=
  (read3_v30 (W4 m ρ c) q).trans (congrFun ((W4_of_ne m ρ c main_arg8 (by decide)).trans <| (W3_keep m ρ c main_arg8 (by decide)).trans <| (W2_of_ne m ρ c main_arg8 (by decide)).trans <| (W1_of_ne m ρ c main_arg8 (by decide)).trans rfl) (ix1 q))

/-- The item-side activations. -/
theorem k_v31 : W6 m ρ c (Proc.devRef .tc main_v31) = (Cert.Spec.leaky (Cert.Spec.agg (Cert.Spec.mm (m ((c : Thread nD τ).loc main_arg0)) (m ((c : Thread nD τ).loc main_arg7))) (m ((c : Thread nD τ).loc main_arg2)) (m ((c : Thread nD τ).loc main_arg3)) (m ((c : Thread nD τ).loc main_arg4))) (m ((c : Thread nD τ).loc main_arg8))) :=
  (W6_arr m ρ c 2).trans ((final3 (V5 m ρ) c (m ((c : Thread nD τ).loc main_arg8)) (k_v30 m ρ c)).trans (leaky_congr _ (((W5_keep m ρ c main_v27 (by decide)).trans <| (W4_of_ne m ρ c main_v27 (by decide)).trans rfl).trans (k_v27 m ρ c))))

theorem k_v32 (k q : Fin 128) : W7 m ρ c (Proc.devRef .tc main_v32) (ix2 k q) = (m ((c : Thread nD τ).loc main_arg9)) (ix2 (⟨k.val, by omega⟩ : Fin 256) q) :=
  (read4_v32 (W6 m ρ c) k q).trans (congrFun ((W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_of_ne m ρ c main_arg9 (by decide)).trans rfl) _)
theorem k_v33 (k q : Fin 128) : W7 m ρ c (Proc.devRef .tc main_v33) (ix2 k q) = (m ((c : Thread nD τ).loc main_arg9)) (ix2 (⟨128 + k.val, by omega⟩ : Fin 256) q) :=
  (read4_v33 (W6 m ρ c) k q).trans (congrFun ((W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_of_ne m ρ c main_arg9 (by decide)).trans rfl) _)
theorem k_v34 (k q : Fin 128) : W7 m ρ c (Proc.devRef .tc main_v34) (ix2 k q) = (m ((c : Thread nD τ).loc main_arg11)) (ix2 (⟨k.val, by omega⟩ : Fin 256) q) :=
  (read4_v34 (W6 m ρ c) k q).trans (congrFun ((W6_of_ne m ρ c main_arg11 (by decide)).trans <| (W5_keep m ρ c main_arg11 (by decide)).trans <| (W4_of_ne m ρ c main_arg11 (by decide)).trans <| (W3_keep m ρ c main_arg11 (by decide)).trans <| (W2_of_ne m ρ c main_arg11 (by decide)).trans <| (W1_of_ne m ρ c main_arg11 (by decide)).trans rfl) _)
theorem k_v35 (k q : Fin 128) : W7 m ρ c (Proc.devRef .tc main_v35) (ix2 k q) = (m ((c : Thread nD τ).loc main_arg11)) (ix2 (⟨128 + k.val, by omega⟩ : Fin 256) q) :=
  (read4_v35 (W6 m ρ c) k q).trans (congrFun ((W6_of_ne m ρ c main_arg11 (by decide)).trans <| (W5_keep m ρ c main_arg11 (by decide)).trans <| (W4_of_ne m ρ c main_arg11 (by decide)).trans <| (W3_keep m ρ c main_arg11 (by decide)).trans <| (W2_of_ne m ρ c main_arg11 (by decide)).trans <| (W1_of_ne m ρ c main_arg11 (by decide)).trans rfl) _)
theorem k_v36 (q : Fin 128) : W7 m ρ c (Proc.devRef .tc main_v36) (ix2 (0 : Fin 1) q) = (m ((c : Thread nD τ).loc main_arg10)) (ix1 q) :=
  (read4_v36 (W6 m ρ c) q).trans (congrFun ((W6_of_ne m ρ c main_arg10 (by decide)).trans <| (W5_keep m ρ c main_arg10 (by decide)).trans <| (W4_of_ne m ρ c main_arg10 (by decide)).trans <| (W3_keep m ρ c main_arg10 (by decide)).trans <| (W2_of_ne m ρ c main_arg10 (by decide)).trans <| (W1_of_ne m ρ c main_arg10 (by decide)).trans rfl) (ix1 q))

/-- The user-side dense layer. -/
theorem k_v37 : W8 m ρ c (Proc.devRef .tc main_v37) = (Cert.Spec.dense (m ((c : Thread nD τ).loc main_arg0)) (Cert.Spec.leaky (Cert.Spec.agg (Cert.Spec.mm (m ((c : Thread nD τ).loc main_arg1)) (m ((c : Thread nD τ).loc main_arg5))) (m ((c : Thread nD τ).loc main_arg3)) (m ((c : Thread nD τ).loc main_arg2)) (m ((c : Thread nD τ).loc main_arg4))) (m ((c : Thread nD τ).loc main_arg6))) (m ((c : Thread nD τ).loc main_arg9)) (m ((c : Thread nD τ).loc main_arg10))) :=
  (W8_arr m ρ c 5).trans ((final4 (V7 m ρ) c (m ((c : Thread nD τ).loc main_arg9)) (m ((c : Thread nD τ).loc main_arg10)) (k_v32 m ρ c) (k_v33 m ρ c) (k_v36 m ρ c)).trans
    (dense_congr _ _ ((W7_keep m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_in m ρ c 0 rfl).trans <| (W1_of_ne m ρ c main_arg0 (by decide)).trans rfl) (((W7_keep m ρ c main_v29 (by decide)).trans <| (W6_of_ne m ρ c main_v29 (by decide)).trans <| (W5_keep m ρ c main_v29 (by decide)).trans rfl).trans (k_v29 m ρ c))))

theorem k_v38 (q : Fin 128) : W9 m ρ c (Proc.devRef .tc main_v38) (ix2 (0 : Fin 1) q) = (m ((c : Thread nD τ).loc main_arg12)) (ix1 q) :=
  (read5_v38 (W8 m ρ c) q).trans (congrFun ((W8_of_ne m ρ c main_arg12 (by decide)).trans <| (W7_keep m ρ c main_arg12 (by decide)).trans <| (W6_of_ne m ρ c main_arg12 (by decide)).trans <| (W5_keep m ρ c main_arg12 (by decide)).trans <| (W4_of_ne m ρ c main_arg12 (by decide)).trans <| (W3_keep m ρ c main_arg12 (by decide)).trans <| (W2_of_ne m ρ c main_arg12 (by decide)).trans <| (W1_of_ne m ρ c main_arg12 (by decide)).trans rfl) (ix1 q))

/-- The item-side dense layer. -/
theorem k_v39 : W10 m ρ c (Proc.devRef .tc main_v39) = (Cert.Spec.dense (m ((c : Thread nD τ).loc main_arg1)) (Cert.Spec.leaky (Cert.Spec.agg (Cert.Spec.mm (m ((c : Thread nD τ).loc main_arg0)) (m ((c : Thread nD τ).loc main_arg7))) (m ((c : Thread nD τ).loc main_arg2)) (m ((c : Thread nD τ).loc main_arg3)) (m ((c : Thread nD τ).loc main_arg4))) (m ((c : Thread nD τ).loc main_arg8))) (m ((c : Thread nD τ).loc main_arg11)) (m ((c : Thread nD τ).loc main_arg12))) :=
  (W10_arr m ρ c 5).trans ((final5 (V9 m ρ) c (m ((c : Thread nD τ).loc main_arg11)) (m ((c : Thread nD τ).loc main_arg12))
      (fun k q => (congrFun ((W9_keep m ρ c main_v34 (by decide)).trans <| (W8_of_ne m ρ c main_v34 (by decide)).trans rfl) _).trans (k_v34 m ρ c k q))
      (fun k q => (congrFun ((W9_keep m ρ c main_v35 (by decide)).trans <| (W8_of_ne m ρ c main_v35 (by decide)).trans rfl) _).trans (k_v35 m ρ c k q)) (k_v38 m ρ c)).trans
    (dense_congr _ _ ((W9_keep m ρ c main_arg1 (by decide)).trans <| (W8_of_ne m ρ c main_arg1 (by decide)).trans <| (W7_keep m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_in m ρ c 0 rfl).trans rfl) (((W9_keep m ρ c main_v31 (by decide)).trans <| (W8_of_ne m ρ c main_v31 (by decide)).trans <| (W7_keep m ρ c main_v31 (by decide)).trans rfl).trans (k_v31 m ρ c))))

/-- THE RESULT: the six arrays stacked are the specification's result of the thirteen arguments. -/
theorem out_eq : W11 m ρ c (Proc.devRef .tc main_v46) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (read6_v46 (W10 m ρ c)).trans (stack6_congr
    (((W10_of_ne m ρ c main_v37 (by decide)).trans <| (W9_keep m ρ c main_v37 (by decide)).trans rfl).trans (k_v37 m ρ c))
    (((W10_of_ne m ρ c main_v29 (by decide)).trans <| (W9_keep m ρ c main_v29 (by decide)).trans <| (W8_in m ρ c 1 rfl).trans <| (W7_keep m ρ c main_v29 (by decide)).trans <| (W6_of_ne m ρ c main_v29 (by decide)).trans <| (W5_keep m ρ c main_v29 (by decide)).trans rfl).trans (k_v29 m ρ c))
    ((W10_of_ne m ρ c main_arg0 (by decide)).trans <| (W9_keep m ρ c main_arg0 (by decide)).trans <| (W8_in m ρ c 0 rfl).trans <| (W7_keep m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_in m ρ c 0 rfl).trans <| (W1_of_ne m ρ c main_arg0 (by decide)).trans rfl)
    (k_v39 m ρ c)
    (((W10_in m ρ c 1 rfl).trans <| (W9_keep m ρ c main_v31 (by decide)).trans <| (W8_of_ne m ρ c main_v31 (by decide)).trans <| (W7_keep m ρ c main_v31 (by decide)).trans rfl).trans (k_v31 m ρ c))
    ((W10_in m ρ c 0 rfl).trans <| (W9_keep m ρ c main_arg1 (by decide)).trans <| (W8_of_ne m ρ c main_arg1 (by decide)).trans <| (W7_keep m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_in m ρ c 0 rfl).trans rfl))

end

/-- The kernel's run: every weakly fair execution terminates, faults nowhere, ends with the result buffer at the
    specification's result of the arguments and the arguments as launched. -/
theorem run : θ_run (defs (F := Ideal)) (onTc (τ := τ) (main (F := Ideal))) ⟨m, fun _ => 0, ρ⟩ (fun r => ∀ c : Dev nD,
      r.2.mem ((c.tc : Thread nD τ).loc main_v46) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v46 (by decide))).trans (out_eq m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c)⟩) (run_all m ρ)

end Cert.KernelIdeal.Val

end
-- ==== Proof.RefOps.lean ====
/-
  The reference program as one straight line of host operations.

  @main calls two outlined functions: the leaky rectifier (a comparison with zero, the slope constant converted and
  spread, a product, and a selection made by a further outlined function) twice, and the rectifier (the maximum with
  zero) twice. Written out at their call sites over each call's own buffers, @main is seventy-nine host operations in
  order. They are listed in two stretches: the first (fifty-six operations) computes the two aggregated, biased and
  rectified arrays; the second (twenty-three) joins each with its features, applies the dense layers, rectifies, and
  stacks the six arrays. Running the line leaves every buffer at the fold of the operations' results over the launch
  contents.
-/
import proofs.«159471_j32143535243482_1_alg».proof.ReferenceIdeal
import Idealize.ShloMosaic.Lib.StableHlo.Run
import proofs.«159471_j32143535243482_1_alg».proof.Proof.LibAfterAppend

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The first stretch: for each side, the product with the weight matrix, the wrapped source rows gathered, scaled by
    the edge values and summed into the destination rows, the bias added, and the leaky rectifier's seven operations. -/
abbrev opsA : List (HloOp τ sig (Elt F)) :=
  [ binary main_arg1 main_arg5 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg3 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v3 (broadcastInDim S800000 ![] bcast_S_S800000 : (⟨S_, .i32⟩ : BufTy).Contents (Elt F) → (⟨S800000, .i32⟩ : BufTy).Contents (Elt F)),
    binary main_arg3 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg3 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_v0 main_v6 main_v7 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg4 main_v8 (broadcastInDim S800000x1 ![0] bcast_S800000_S800000x1_0 : (⟨S800000, .f32⟩ : BufTy).Contents (Elt F) → (⟨S800000x1, .f32⟩ : BufTy).Contents (Elt F)),
    unary main_v8 main_v9 (broadcastInDim S800000x128 ![0, 1] bcast_S800000x1_S800000x128_0_1 : (⟨S800000x1, .f32⟩ : BufTy).Contents (Elt F) → (⟨S800000x128, .f32⟩ : BufTy).Contents (Elt F)),
    binary main_v7 main_v9 main_v10 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3DCCCCCD#32),
    TRef.nullary main_call0.cst (constant S_ .f32 0x00000000#32),
    TRef.unary main_call0.cst main_call0.v0 (broadcastInDim S100000x128 ![] bcast_S_S100000x128),
    TRef.binary (TRef.of main_v16 : TRef sig ⟨S100000x128, .f32⟩) main_call0.v0 main_call0.v1 (cmpf .oge),
    TRef.unary (TRef.of main_cst_1 : TRef sig ⟨S_, .f32⟩) main_call0.v2 id,
    TRef.unary main_call0.v2 main_call0.v3 (broadcastInDim S100000x128 ![] bcast_S_S100000x128),
    TRef.binary main_call0.v3 (TRef.of main_v16 : TRef sig ⟨S100000x128, .f32⟩) main_call0.v4 mulf,
    TRef.ternary main_call0.v1 (TRef.of main_v16 : TRef sig ⟨S100000x128, .f32⟩) main_call0.v4 main_call0.call0.v0 select,
    binary main_arg0 main_arg7 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_2 (constantI S_ 32 0#32),
    unary main_c_2 main_v19 (broadcastInDim S800000 ![] bcast_S_S800000 : (⟨S_, .i32⟩ : BufTy).Contents (Elt F) → (⟨S800000, .i32⟩ : BufTy).Contents (Elt F)),
    binary main_arg2 main_v19 main_v20 (cmpi .slt : (⟨S800000, .i32⟩ : BufTy).Contents (Elt F) → (⟨S800000, .i32⟩ : BufTy).Contents (Elt F) → (⟨S800000, .i1⟩ : BufTy).Contents (Elt F)),
    nullary main_c_3 (constantI S_ 32 100000#32),
    unary main_c_3 main_v21 (broadcastInDim S800000 ![] bcast_S_S800000 : (⟨S_, .i32⟩ : BufTy).Contents (Elt F) → (⟨S800000, .i32⟩ : BufTy).Contents (Elt F)),
    binary main_arg2 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg2 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg4 main_v26 (broadcastInDim S800000x1 ![0] bcast_S800000_S800000x1_0 : (⟨S800000, .f32⟩ : BufTy).Contents (Elt F) → (⟨S800000x1, .f32⟩ : BufTy).Contents (Elt F)),
    unary main_v26 main_v27 (broadcastInDim S800000x128 ![0, 1] bcast_S800000x1_S800000x128_0_1 : (⟨S800000x1, .f32⟩ : BufTy).Contents (Elt F) → (⟨S800000x128, .f32⟩ : BufTy).Contents (Elt F)),
    binary main_v25 main_v27 main_v28 (mulf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    unary main_cst_4 main_v29 (broadcastInDim S100000x128 ![] bcast_S_S100000x128 : (⟨S_, .f32⟩ : BufTy).Contents (Elt F) → (⟨S100000x128, .f32⟩ : BufTy).Contents (Elt F)),
    unary main_arg3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_arg8 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3DCCCCCD#32),
    TRef.nullary main_call1.cst (constant S_ .f32 0x00000000#32),
    TRef.unary main_call1.cst main_call1.v0 (broadcastInDim S100000x128 ![] bcast_S_S100000x128),
    TRef.binary (TRef.of main_v34 : TRef sig ⟨S100000x128, .f32⟩) main_call1.v0 main_call1.v1 (cmpf .oge),
    TRef.unary (TRef.of main_cst_5 : TRef sig ⟨S_, .f32⟩) main_call1.v2 id,
    TRef.unary main_call1.v2 main_call1.v3 (broadcastInDim S100000x128 ![] bcast_S_S100000x128),
    TRef.binary main_call1.v3 (TRef.of main_v34 : TRef sig ⟨S100000x128, .f32⟩) main_call1.v4 mulf,
    TRef.ternary main_call1.v1 (TRef.of main_v34 : TRef sig ⟨S100000x128, .f32⟩) main_call1.v4 main_call1.call0.v0 select ]

/-- The second stretch: each side's features joined with its rectified array, the dense layer and its bias, the
    rectifier's three operations, the six arrays each given a leading axis, and their concatenation. -/
abbrev opsB : List (HloOp τ sig (Elt F)) :=
  [ binary main_arg0 main_v17 main_v36 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v36 main_arg9 main_v37 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    binary main_arg1 main_v35 main_v41 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v41 main_arg11 main_v42 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg12 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (TRef.of main_v40 : TRef sig ⟨S100000x128, .f32⟩) main_call2.v0 main_call2.v1 maximumf,
    TRef.nullary main_call3.cst (constant S_ .f32 0x00000000#32),
    TRef.unary main_call3.cst main_call3.v0 (broadcastInDim S100000x128 ![] bcast_S_S100000x128),
    TRef.binary (TRef.of main_v45 : TRef sig ⟨S100000x128, .f32⟩) main_call3.v0 main_call3.v1 maximumf,
    unary main_v46 main_v48 (broadcastInDim S1x100000x128 ![1, 2] bcast_S100000x128_S1x100000x128_1_2 : (⟨S100000x128, .f32⟩ : BufTy).Contents (Elt F) → (⟨S1x100000x128, .f32⟩ : BufTy).Contents (Elt F)),
    unary main_v17 main_v49 (broadcastInDim S1x100000x128 ![1, 2] bcast_S100000x128_S1x100000x128_1_2 : (⟨S100000x128, .f32⟩ : BufTy).Contents (Elt F) → (⟨S1x100000x128, .f32⟩ : BufTy).Contents (Elt F)),
    unary main_arg0 main_v50 (broadcastInDim S1x100000x128 ![1, 2] bcast_S100000x128_S1x100000x128_1_2 : (⟨S100000x128, .f32⟩ : BufTy).Contents (Elt F) → (⟨S1x100000x128, .f32⟩ : BufTy).Contents (Elt F)),
    unary main_v47 main_v51 (broadcastInDim S1x100000x128 ![1, 2] bcast_S100000x128_S1x100000x128_1_2 : (⟨S100000x128, .f32⟩ : BufTy).Contents (Elt F) → (⟨S1x100000x128, .f32⟩ : BufTy).Contents (Elt F)),
    unary main_v35 main_v52 (broadcastInDim S1x100000x128 ![1, 2] bcast_S100000x128_S1x100000x128_1_2 : (⟨S100000x128, .f32⟩ : BufTy).Contents (Elt F) → (⟨S1x100000x128, .f32⟩ : BufTy).Contents (Elt F)),
    unary main_arg1 main_v53 (broadcastInDim S1x100000x128 ![1, 2] bcast_S100000x128_S1x100000x128_1_2 : (⟨S100000x128, .f32⟩ : BufTy).Contents (Elt F) → (⟨S1x100000x128, .f32⟩ : BufTy).Contents (Elt F)),
    nary ![main_v48, main_v49, main_v50, main_v51, main_v52, main_v53] main_v54 (fun u => concatenate S6x100000x128 0 [⟨S1x100000x128, u 0⟩, ⟨S1x100000x128, u 1⟩, ⟨S1x100000x128, u 2⟩, ⟨S1x100000x128, u 3⟩, ⟨S1x100000x128, u 4⟩, ⟨S1x100000x128, u 5⟩] concatenates_S1x100000x128_S1x100000x128_S1x100000x128_S1x100000x128_S1x100000x128_S1x100000x128_S6x100000x128_d0) ]

/-- @main's seventy-nine operations, in order, the calls written out. -/
abbrev ops : List (HloOp τ sig (Elt F)) := opsA ++ opsB

/-- The contents after the whole line are the second stretch's over the first stretch's. -/
theorem after_ops (V : Valuation τ sig (Elt F)) : after (ops (F := F)) V = after opsB (after opsA V) :=
  Cert.LibAfterAppend.after_append opsA opsB V

-- seventy-nine binds re-associated: the rewriting under the chain recurses once per statement
set_option maxRecDepth 4096 in
set_option maxHeartbeats 1600000 in
/-- @main is that straight line: the outlined functions' bodies unfolded at their calls, both sides are one chain of
    host steps once sequencing is re-associated. -/
theorem main_eq (c : Dev nD) : main (F := F) c = seq ops := by
  simp only [main, main_part0, main_part1, fn_leaky_relu.body, fn_relu.body, fn_where.body, ops, opsA, opsB,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsB_sub : (opsB : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., nary_bufs_sub ..⟩

theorem ops_sub : (ops : List (HloOp τ sig (Elt F))).Forall fun op => op.bufs ⊆ tcRefs τ sig :=
  List.forall_append.mpr ⟨opsA_sub, opsB_sub⟩

end Cert.ReferenceIdeal.RefRun

end
-- ==== Proof.RefValueA.lean ====
/-
  What the first stretch of the reference computes.

  The first stretch's fifty-six operations leave, in the buffers of the two leaky rectifiers' results, the user-side and
  the item-side activations of the specification: the features times the weight matrix, the rows at the wrapped source
  indices gathered, scaled by the edge values, summed into the destination rows, the bias row added, and the rectifier
  with slope 0.1 on the negative side. The thirteen argument buffers are written by no operation.

  The outlined functions' operations are stated over references that carry the tensor value's type; at a literal buffer
  that type is the buffer's own and the transport is the identity, so the stretch equals the same list with each such
  operation stated at the buffers themselves, and the reading is done on that list.
-/
import proofs.«159471_j32143535243482_1_alg».proof.Proof.RefOps
import proofs.«159471_j32143535243482_1_alg».proof.Proof.Spec

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The first stretch with the leaky rectifiers' operations stated at the buffers themselves. -/
abbrev opsA' : List (HloOp τ sig (Elt F)) :=
  [ binary main_arg1 main_arg5 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg3 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v3 (broadcastInDim S800000 ![] bcast_S_S800000 : (⟨S_, .i32⟩ : BufTy).Contents (Elt F) → (⟨S800000, .i32⟩ : BufTy).Contents (Elt F)),
    binary main_arg3 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg3 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_v0 main_v6 main_v7 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg4 main_v8 (broadcastInDim S800000x1 ![0] bcast_S800000_S800000x1_0 : (⟨S800000, .f32⟩ : BufTy).Contents (Elt F) → (⟨S800000x1, .f32⟩ : BufTy).Contents (Elt F)),
    unary main_v8 main_v9 (broadcastInDim S800000x128 ![0, 1] bcast_S800000x1_S800000x128_0_1 : (⟨S800000x1, .f32⟩ : BufTy).Contents (Elt F) → (⟨S800000x128, .f32⟩ : BufTy).Contents (Elt F)),
    binary main_v7 main_v9 main_v10 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3DCCCCCD#32),
    nullary main_call0_cst (constant S_ .f32 0x00000000#32),
    unary main_call0_cst main_call0_v0 (broadcastInDim S100000x128 ![] bcast_S_S100000x128 : (⟨S_, .f32⟩ : BufTy).Contents (Elt F) → (⟨S100000x128, .f32⟩ : BufTy).Contents (Elt F)),
    binary main_v16 main_call0_v0 main_call0_v1 (cmpf .oge : (⟨S100000x128, .f32⟩ : BufTy).Contents (Elt F) → (⟨S100000x128, .f32⟩ : BufTy).Contents (Elt F) → (⟨S100000x128, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S100000x128 ![] bcast_S_S100000x128 : (⟨S_, .f32⟩ : BufTy).Contents (Elt F) → (⟨S100000x128, .f32⟩ : BufTy).Contents (Elt F)),
    binary main_call0_v3 main_v16 main_call0_v4 (mulf : (⟨S100000x128, .f32⟩ : BufTy).Contents (Elt F) → (⟨S100000x128, .f32⟩ : BufTy).Contents (Elt F) → (⟨S100000x128, .f32⟩ : BufTy).Contents (Elt F)),
    ternary main_call0_v1 main_v16 main_call0_v4 main_v17 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    binary main_arg0 main_arg7 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_2 (constantI S_ 32 0#32),
    unary main_c_2 main_v19 (broadcastInDim S800000 ![] bcast_S_S800000 : (⟨S_, .i32⟩ : BufTy).Contents (Elt F) → (⟨S800000, .i32⟩ : BufTy).Contents (Elt F)),
    binary main_arg2 main_v19 main_v20 (cmpi .slt : (⟨S800000, .i32⟩ : BufTy).Contents (Elt F) → (⟨S800000, .i32⟩ : BufTy).Contents (Elt F) → (⟨S800000, .i1⟩ : BufTy).Contents (Elt F)),
    nullary main_c_3 (constantI S_ 32 100000#32),
    unary main_c_3 main_v21 (broadcastInDim S800000 ![] bcast_S_S800000 : (⟨S_, .i32⟩ : BufTy).Contents (Elt F) → (⟨S800000, .i32⟩ : BufTy).Contents (Elt F)),
    binary main_arg2 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg2 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg4 main_v26 (broadcastInDim S800000x1 ![0] bcast_S800000_S800000x1_0 : (⟨S800000, .f32⟩ : BufTy).Contents (Elt F) → (⟨S800000x1, .f32⟩ : BufTy).Contents (Elt F)),
    unary main_v26 main_v27 (broadcastInDim S800000x128 ![0, 1] bcast_S800000x1_S800000x128_0_1 : (⟨S800000x1, .f32⟩ : BufTy).Contents (Elt F) → (⟨S800000x128, .f32⟩ : BufTy).Contents (Elt F)),
    binary main_v25 main_v27 main_v28 (mulf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    unary main_cst_4 main_v29 (broadcastInDim S100000x128 ![] bcast_S_S100000x128 : (⟨S_, .f32⟩ : BufTy).Contents (Elt F) → (⟨S100000x128, .f32⟩ : BufTy).Contents (Elt F)),
    unary main_arg3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_arg8 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3DCCCCCD#32),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v34 main_call1_v0 main_call1_v1 (cmpf .oge : (⟨S100000x128, .f32⟩ : BufTy).Contents (Elt F) → (⟨S100000x128, .f32⟩ : BufTy).Contents (Elt F) → (⟨S100000x128, .i1⟩ : BufTy).Contents (Elt F)),
    unary main_cst_5 main_call1_v2 (id : (⟨S_, .f32⟩ : BufTy).Contents (Elt F) → (⟨S_, .f32⟩ : BufTy).Contents (Elt F)),
    unary main_call1_v2 main_call1_v3 (broadcastInDim S100000x128 ![] bcast_S_S100000x128 : (⟨S_, .f32⟩ : BufTy).Contents (Elt F) → (⟨S100000x128, .f32⟩ : BufTy).Contents (Elt F)),
    binary main_call1_v3 main_v34 main_call1_v4 (mulf : (⟨S100000x128, .f32⟩ : BufTy).Contents (Elt F) → (⟨S100000x128, .f32⟩ : BufTy).Contents (Elt F) → (⟨S100000x128, .f32⟩ : BufTy).Contents (Elt F)),
    ternary main_call1_v1 main_v34 main_call1_v4 main_v35 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

set_option maxRecDepth 4096 in
/-- The two lists are the same: at a literal buffer the typed reference's transport is the identity. -/
theorem opsA_plain : (opsA : List (HloOp τ sig (Elt F))) = opsA' := rfl

set_option maxRecDepth 8192 in
set_option maxHeartbeats 1600000 in
/-- After the first stretch the first leaky rectifier's result is the user-side activations. -/
theorem readA_v17 (V : Valuation τ sig (Elt Ideal)) :
    after (opsA (F := Ideal)) V (main_v17 : DevRef τ sig)
      = Cert.Spec.userN (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  rw [opsA_plain]
  simp only [opsA']
  after_results_simp
  simp only [Cert.Spec.userN, Cert.Spec.leaky, Cert.Spec.agg, Cert.Spec.mm, Cert.Spec.wrap, Cert.Spec.biasRows]

set_option maxRecDepth 8192 in
set_option maxHeartbeats 1600000 in
/-- After the first stretch the second leaky rectifier's result is the item-side activations. -/
theorem readA_v35 (V : Valuation τ sig (Elt Ideal)) :
    after (opsA (F := Ideal)) V (main_v35 : DevRef τ sig)
      = Cert.Spec.itemN (V (main_arg0 : DevRef τ sig)) (V (main_arg2 : DevRef τ sig)) (V (main_arg3 : DevRef τ sig))
          (V (main_arg4 : DevRef τ sig)) (V (main_arg7 : DevRef τ sig)) (V (main_arg8 : DevRef τ sig)) := by
  rw [opsA_plain]
  simp only [opsA']
  after_results_simp
  simp only [Cert.Spec.itemN, Cert.Spec.leaky, Cert.Spec.agg, Cert.Spec.mm, Cert.Spec.wrap, Cert.Spec.biasRows]

set_option maxRecDepth 8192 in
/-- No operation of the first stretch writes argument 0. -/
theorem keepA_arg0 (V : Valuation τ sig (Elt F)) :
    after (opsA (F := F)) V (main_arg0 : DevRef τ sig) = V (main_arg0 : DevRef τ sig) := by
  rw [opsA_plain]
  simp only [opsA']
  after_results_simp

set_option maxRecDepth 8192 in
/-- No operation of the first stretch writes argument 1. -/
theorem keepA_arg1 (V : Valuation τ sig (Elt F)) :
    after (opsA (F := F)) V (main_arg1 : DevRef τ sig) = V (main_arg1 : DevRef τ sig) := by
  rw [opsA_plain]
  simp only [opsA']
  after_results_simp

set_option maxRecDepth 8192 in
/-- No operation of the first stretch writes argument 2. -/
theorem keepA_arg2 (V : Valuation τ sig (Elt F)) :
    after (opsA (F := F)) V (main_arg2 : DevRef τ sig) = V (main_arg2 : DevRef τ sig) := by
  rw [opsA_plain]
  simp only [opsA']
  after_results_simp

set_option maxRecDepth 8192 in
/-- No operation of the first stretch writes argument 3. -/
theorem keepA_arg3 (V : Valuation τ sig (Elt F)) :
    after (opsA (F := F)) V (main_arg3 : DevRef τ sig) = V (main_arg3 : DevRef τ sig) := by
  rw [opsA_plain]
  simp only [opsA']
  after_results_simp

set_option maxRecDepth 8192 in
/-- No operation of the first stretch writes argument 4. -/
theorem keepA_arg4 (V : Valuation τ sig (Elt F)) :
    after (opsA (F := F)) V (main_arg4 : DevRef τ sig) = V (main_arg4 : DevRef τ sig) := by
  rw [opsA_plain]
  simp only [opsA']
  after_results_simp

set_option maxRecDepth 8192 in
/-- No operation of the first stretch writes argument 5. -/
theorem keepA_arg5 (V : Valuation τ sig (Elt F)) :
    after (opsA (F := F)) V (main_arg5 : DevRef τ sig) = V (main_arg5 : DevRef τ sig) := by
  rw [opsA_plain]
  simp only [opsA']
  after_results_simp

set_option maxRecDepth 8192 in
/-- No operation of the first stretch writes argument 6. -/
theorem keepA_arg6 (V : Valuation τ sig (Elt F)) :
    after (opsA (F := F)) V (main_arg6 : DevRef τ sig) = V (main_arg6 : DevRef τ sig) := by
  rw [opsA_plain]
  simp only [opsA']
  after_results_simp

set_option maxRecDepth 8192 in
/-- No operation of the first stretch writes argument 7. -/
theorem keepA_arg7 (V : Valuation τ sig (Elt F)) :
    after (opsA (F := F)) V (main_arg7 : DevRef τ sig) = V (main_arg7 : DevRef τ sig) := by
  rw [opsA_plain]
  simp only [opsA']
  after_results_simp

set_option maxRecDepth 8192 in
/-- No operation of the first stretch writes argument 8. -/
theorem keepA_arg8 (V : Valuation τ sig (Elt F)) :
    after (opsA (F := F)) V (main_arg8 : DevRef τ sig) = V (main_arg8 : DevRef τ sig) := by
  rw [opsA_plain]
  simp only [opsA']
  after_results_simp

set_option maxRecDepth 8192 in
/-- No operation of the first stretch writes argument 9. -/
theorem keepA_arg9 (V : Valuation τ sig (Elt F)) :
    after (opsA (F := F)) V (main_arg9 : DevRef τ sig) = V (main_arg9 : DevRef τ sig) := by
  rw [opsA_plain]
  simp only [opsA']
  after_results_simp

set_option maxRecDepth 8192 in
/-- No operation of the first stretch writes argument 10. -/
theorem keepA_arg10 (V : Valuation τ sig (Elt F)) :
    after (opsA (F := F)) V (main_arg10 : DevRef τ sig) = V (main_arg10 : DevRef τ sig) := by
  rw [opsA_plain]
  simp only [opsA']
  after_results_simp

set_option maxRecDepth 8192 in
/-- No operation of the first stretch writes argument 11. -/
theorem keepA_arg11 (V : Valuation τ sig (Elt F)) :
    after (opsA (F := F)) V (main_arg11 : DevRef τ sig) = V (main_arg11 : DevRef τ sig) := by
  rw [opsA_plain]
  simp only [opsA']
  after_results_simp

set_option maxRecDepth 8192 in
/-- No operation of the first stretch writes argument 12. -/
theorem keepA_arg12 (V : Valuation τ sig (Elt F)) :
    after (opsA (F := F)) V (main_arg12 : DevRef τ sig) = V (main_arg12 : DevRef τ sig) := by
  rw [opsA_plain]
  simp only [opsA']
  after_results_simp

end Cert.ReferenceIdeal.RefRun

end
-- ==== Proof.RefValueB.lean ====
/-
  What the second stretch of the reference's line computes.

  The stretch is read in four pieces.  The first ten operations form, for each side, the features joined with the
  rectified array, their product with the weight matrix, and the bias row added: the layer before its rectifier.  The
  next six take the maximum with zero of each.  The next six give each of the six arrays a leading axis, and the last
  operation joins them.  Each piece's result is read off its operations; the contents after the whole stretch are
  each piece's over the one before, and every array a later piece reads and an earlier one does not write is what
  it was.  Put together, the final buffer holds the stack of the six arrays of the specification.
-/
import proofs.«159471_j32143535243482_1_alg».proof.Proof.RefOps
import proofs.«159471_j32143535243482_1_alg».proof.Proof.Spec
import proofs.«159471_j32143535243482_1_alg».proof.Proof.LibNaryResult
import proofs.«159471_j32143535243482_1_alg».proof.Proof.LibAfterAppend

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The first piece: both layers before their rectifiers. -/
abbrev opsB1 : List (HloOp τ sig (Elt F)) :=
  [ binary main_arg0 main_v17 main_v36 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v36 main_arg9 main_v37 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    binary main_arg1 main_v35 main_v41 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v41 main_arg11 main_v42 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg12 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)) ]

/-- The second piece: the two maxima with zero. -/
abbrev opsB2 : List (HloOp τ sig (Elt F)) :=
  [ TRef.nullary main_call2.cst (constant S_ .f32 0x00000000#32),
    TRef.unary main_call2.cst main_call2.v0 (broadcastInDim S100000x128 ![] bcast_S_S100000x128),
    TRef.binary (TRef.of main_v40 : TRef sig ⟨S100000x128, .f32⟩) main_call2.v0 main_call2.v1 maximumf,
    TRef.nullary main_call3.cst (constant S_ .f32 0x00000000#32),
    TRef.unary main_call3.cst main_call3.v0 (broadcastInDim S100000x128 ![] bcast_S_S100000x128),
    TRef.binary (TRef.of main_v45 : TRef sig ⟨S100000x128, .f32⟩) main_call3.v0 main_call3.v1 maximumf ]

/-- The third piece: the six leading axes. -/
abbrev opsB3 : List (HloOp τ sig (Elt F)) :=
  [ unary main_v46 main_v48 (broadcastInDim S1x100000x128 ![1, 2] bcast_S100000x128_S1x100000x128_1_2 : (⟨S100000x128, .f32⟩ : BufTy).Contents (Elt F) → (⟨S1x100000x128, .f32⟩ : BufTy).Contents (Elt F)),
    unary main_v17 main_v49 (broadcastInDim S1x100000x128 ![1, 2] bcast_S100000x128_S1x100000x128_1_2 : (⟨S100000x128, .f32⟩ : BufTy).Contents (Elt F) → (⟨S1x100000x128, .f32⟩ : BufTy).Contents (Elt F)),
    unary main_arg0 main_v50 (broadcastInDim S1x100000x128 ![1, 2] bcast_S100000x128_S1x100000x128_1_2 : (⟨S100000x128, .f32⟩ : BufTy).Contents (Elt F) → (⟨S1x100000x128, .f32⟩ : BufTy).Contents (Elt F)),
    unary main_v47 main_v51 (broadcastInDim S1x100000x128 ![1, 2] bcast_S100000x128_S1x100000x128_1_2 : (⟨S100000x128, .f32⟩ : BufTy).Contents (Elt F) → (⟨S1x100000x128, .f32⟩ : BufTy).Contents (Elt F)),
    unary main_v35 main_v52 (broadcastInDim S1x100000x128 ![1, 2] bcast_S100000x128_S1x100000x128_1_2 : (⟨S100000x128, .f32⟩ : BufTy).Contents (Elt F) → (⟨S1x100000x128, .f32⟩ : BufTy).Contents (Elt F)),
    unary main_arg1 main_v53 (broadcastInDim S1x100000x128 ![1, 2] bcast_S100000x128_S1x100000x128_1_2 : (⟨S100000x128, .f32⟩ : BufTy).Contents (Elt F) → (⟨S1x100000x128, .f32⟩ : BufTy).Contents (Elt F)) ]

/-- The last operation: the join of the six. -/
abbrev opsB4 : List (HloOp τ sig (Elt F)) :=
  [ nary ![main_v48, main_v49, main_v50, main_v51, main_v52, main_v53] main_v54 (fun u => concatenate S6x100000x128 0 [⟨S1x100000x128, u 0⟩, ⟨S1x100000x128, u 1⟩, ⟨S1x100000x128, u 2⟩, ⟨S1x100000x128, u 3⟩, ⟨S1x100000x128, u 4⟩, ⟨S1x100000x128, u 5⟩] concatenates_S1x100000x128_S1x100000x128_S1x100000x128_S1x100000x128_S1x100000x128_S1x100000x128_S6x100000x128_d0) ]

/-- The stretch is its three pieces in order. -/
theorem opsB_cut : opsB (F := F) = opsB1 ++ (opsB2 ++ (opsB3 ++ opsB4)) := rfl

/-- The contents after the stretch are the join's over the third piece's over the second's over the first's. -/
theorem after_opsB (V : Valuation τ sig (Elt F)) :
    after (opsB (F := F)) V = after opsB4 (after opsB3 (after opsB2 (after opsB1 V))) := by
  rw [opsB_cut, Cert.LibAfterAppend.after_append, Cert.LibAfterAppend.after_append, Cert.LibAfterAppend.after_append]

/-- The layer before its rectifier: the joined product plus the bias rows. -/
def pre (a c : FVec Ideal S100000x128 .f32) (W : FVec Ideal S256x128 .f32) (b : FVec Ideal S128 .f32) :
    FVec Ideal S100000x128 .f32 :=
  addf
    (Host.dotGeneral (F := Ideal) dot_S100000x256_S256x128_S100000x128_1_0_0_1_n_n none
      (concatenate S100000x256 1 [⟨S100000x128, a⟩, ⟨S100000x128, c⟩] concatenates_S100000x128_S100000x128_S100000x256_d1) W)
    (Cert.Spec.biasRows b)

/-- The zero array. -/
def zeros : FVec Ideal S100000x128 .f32 :=
  broadcastInDim S100000x128 ![] bcast_S_S100000x128 (constant (F := Ideal) S_ .f32 0x00000000#32)

/-- The specification's layer is the maximum of the layer before its rectifier with zero. -/
theorem dense_eq (a c : FVec Ideal S100000x128 .f32) (W : FVec Ideal S256x128 .f32) (b : FVec Ideal S128 .f32) :
    Cert.Spec.dense a c W b = maximumf (pre a c W b) zeros := rfl

/-- After the first piece the first pre-activation buffer holds the first layer before its rectifier. -/
theorem read1_v40 (V : Valuation τ sig (Elt Ideal)) :
    after (opsB1 (F := Ideal)) V (Proc.devRef .tc main_v40)
      = pre (V (Proc.devRef .tc main_arg0)) (V (Proc.devRef .tc main_v17)) (V (Proc.devRef .tc main_arg9)) (V (Proc.devRef .tc main_arg10)) := by
  simp only [opsB1]
  after_results_simp
  rfl

/-- After the first piece the second pre-activation buffer holds the second layer before its rectifier. -/
theorem read1_v45 (V : Valuation τ sig (Elt Ideal)) :
    after (opsB1 (F := Ideal)) V (Proc.devRef .tc main_v45)
      = pre (V (Proc.devRef .tc main_arg1)) (V (Proc.devRef .tc main_v35)) (V (Proc.devRef .tc main_arg11)) (V (Proc.devRef .tc main_arg12)) := by
  simp only [opsB1]
  after_results_simp
  rfl

/-! The first piece writes none of the four arrays the later pieces read from before it. -/
theorem keep1_v17 (V : Valuation τ sig (Elt Ideal)) :
    after (opsB1 (F := Ideal)) V (Proc.devRef .tc main_v17) = V (Proc.devRef .tc main_v17) := by
  simp only [opsB1]
  after_results_simp

theorem keep1_v35 (V : Valuation τ sig (Elt Ideal)) :
    after (opsB1 (F := Ideal)) V (Proc.devRef .tc main_v35) = V (Proc.devRef .tc main_v35) := by
  simp only [opsB1]
  after_results_simp

theorem keep1_arg0 (V : Valuation τ sig (Elt Ideal)) :
    after (opsB1 (F := Ideal)) V (Proc.devRef .tc main_arg0) = V (Proc.devRef .tc main_arg0) := by
  simp only [opsB1]
  after_results_simp

theorem keep1_arg1 (V : Valuation τ sig (Elt Ideal)) :
    after (opsB1 (F := Ideal)) V (Proc.devRef .tc main_arg1) = V (Proc.devRef .tc main_arg1) := by
  simp only [opsB1]
  after_results_simp

/-- After the second piece the first rectified buffer holds the maximum of the first pre-activation with zero. -/
theorem read2_v46 (V : Valuation τ sig (Elt Ideal)) :
    after (opsB2 (F := Ideal)) V (Proc.devRef .tc main_v46) = maximumf (V (Proc.devRef .tc main_v40)) zeros := by
  simp only [opsB2]
  after_results_simp
  rfl

/-- After the second piece the second rectified buffer holds the maximum of the second pre-activation with zero. -/
theorem read2_v47 (V : Valuation τ sig (Elt Ideal)) :
    after (opsB2 (F := Ideal)) V (Proc.devRef .tc main_v47) = maximumf (V (Proc.devRef .tc main_v45)) zeros := by
  simp only [opsB2]
  after_results_simp
  rfl

/-! Nor does the second piece. -/
theorem keep2_v17 (V : Valuation τ sig (Elt Ideal)) :
    after (opsB2 (F := Ideal)) V (Proc.devRef .tc main_v17) = V (Proc.devRef .tc main_v17) := by
  simp only [opsB2]
  after_results_simp

theorem keep2_v35 (V : Valuation τ sig (Elt Ideal)) :
    after (opsB2 (F := Ideal)) V (Proc.devRef .tc main_v35) = V (Proc.devRef .tc main_v35) := by
  simp only [opsB2]
  after_results_simp

theorem keep2_arg0 (V : Valuation τ sig (Elt Ideal)) :
    after (opsB2 (F := Ideal)) V (Proc.devRef .tc main_arg0) = V (Proc.devRef .tc main_arg0) := by
  simp only [opsB2]
  after_results_simp

theorem keep2_arg1 (V : Valuation τ sig (Elt Ideal)) :
    after (opsB2 (F := Ideal)) V (Proc.devRef .tc main_arg1) = V (Proc.devRef .tc main_arg1) := by
  simp only [opsB2]
  after_results_simp

/-! After the third piece each of the six slab buffers holds its array under a leading axis. -/
theorem read3_v48 (V : Valuation τ sig (Elt Ideal)) :
    after (opsB3 (F := Ideal)) V (Proc.devRef .tc main_v48) = Cert.Spec.slab (V (Proc.devRef .tc main_v46)) := by
  simp only [opsB3]
  after_results_simp
  rfl

theorem read3_v49 (V : Valuation τ sig (Elt Ideal)) :
    after (opsB3 (F := Ideal)) V (Proc.devRef .tc main_v49) = Cert.Spec.slab (V (Proc.devRef .tc main_v17)) := by
  simp only [opsB3]
  after_results_simp
  rfl

theorem read3_v50 (V : Valuation τ sig (Elt Ideal)) :
    after (opsB3 (F := Ideal)) V (Proc.devRef .tc main_v50) = Cert.Spec.slab (V (Proc.devRef .tc main_arg0)) := by
  simp only [opsB3]
  after_results_simp
  rfl

theorem read3_v51 (V : Valuation τ sig (Elt Ideal)) :
    after (opsB3 (F := Ideal)) V (Proc.devRef .tc main_v51) = Cert.Spec.slab (V (Proc.devRef .tc main_v47)) := by
  simp only [opsB3]
  after_results_simp
  rfl

theorem read3_v52 (V : Valuation τ sig (Elt Ideal)) :
    after (opsB3 (F := Ideal)) V (Proc.devRef .tc main_v52) = Cert.Spec.slab (V (Proc.devRef .tc main_v35)) := by
  simp only [opsB3]
  after_results_simp
  rfl

theorem read3_v53 (V : Valuation τ sig (Elt Ideal)) :
    after (opsB3 (F := Ideal)) V (Proc.devRef .tc main_v53) = Cert.Spec.slab (V (Proc.devRef .tc main_arg1)) := by
  simp only [opsB3]
  after_results_simp
  rfl

/-- The join reads the six slab buffers, in order. -/
theorem read4_v54 (V : Valuation τ sig (Elt Ideal)) :
    after (opsB4 (F := Ideal)) V (Proc.devRef .tc main_v54)
      = concatenate S6x100000x128 0 [⟨S1x100000x128, V (Proc.devRef .tc main_v48)⟩, ⟨S1x100000x128, V (Proc.devRef .tc main_v49)⟩,
          ⟨S1x100000x128, V (Proc.devRef .tc main_v50)⟩, ⟨S1x100000x128, V (Proc.devRef .tc main_v51)⟩, ⟨S1x100000x128, V (Proc.devRef .tc main_v52)⟩,
          ⟨S1x100000x128, V (Proc.devRef .tc main_v53)⟩]
          concatenates_S1x100000x128_S1x100000x128_S1x100000x128_S1x100000x128_S1x100000x128_S1x100000x128_S6x100000x128_d0 := by
  simp only [opsB4, after_cons, after_nil]
  rw [nary6_result]
  rfl

/-- The whole stretch: the result buffer holds the specification's stack, the two layers taken of the features and
    the rectified arrays the first stretch left. -/
theorem read_opsB (Vv : Valuation τ sig (Elt Ideal)) :
    after (opsB (F := Ideal)) Vv (Proc.devRef .tc main_v54)
      = Cert.Spec.stack6
          (Cert.Spec.dense (Vv (Proc.devRef .tc main_arg0)) (Vv (Proc.devRef .tc main_v17)) (Vv (Proc.devRef .tc main_arg9)) (Vv (Proc.devRef .tc main_arg10)))
          (Vv (Proc.devRef .tc main_v17)) (Vv (Proc.devRef .tc main_arg0))
          (Cert.Spec.dense (Vv (Proc.devRef .tc main_arg1)) (Vv (Proc.devRef .tc main_v35)) (Vv (Proc.devRef .tc main_arg11)) (Vv (Proc.devRef .tc main_arg12)))
          (Vv (Proc.devRef .tc main_v35)) (Vv (Proc.devRef .tc main_arg1)) := by
  rw [after_opsB, read4_v54, read3_v48, read3_v49, read3_v50, read3_v51, read3_v52, read3_v53,
    read2_v46, read2_v47, keep2_v17, keep2_v35, keep2_arg0, keep2_arg1,
    read1_v40, read1_v45, keep1_v17, keep1_v35, keep1_arg0, keep1_arg1, dense_eq, dense_eq]
  rfl

end Cert.ReferenceIdeal.RefRun

end
-- ==== Proof.RefRun.lean ====
/-
  The reference's run.

  @main is a straight line of seventy-nine host operations, so every weakly fair execution of it terminates with each
  buffer at the fold of the operations' results over the launch contents. Read at the result buffer that fold is the
  specification's value of the thirteen arguments: the second stretch stacks the two dense layers' rectified values,
  the two activations and the two feature arrays over what the first stretch leaves, and the first stretch leaves the
  activations in their buffers and every argument untouched. Read at an argument buffer the fold is the launch
  contents, no operation writing it.
-/
import proofs.«159471_j32143535243482_1_alg».proof.Proof.RefValueA
import proofs.«159471_j32143535243482_1_alg».proof.Proof.RefValueB

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

set_option maxRecDepth 8192 in
/-- No operation of the second stretch writes argument 0. -/
theorem keepB_arg0 (V : Valuation τ sig (Elt F)) :
    after (opsB (F := F)) V (main_arg0 : DevRef τ sig) = V (main_arg0 : DevRef τ sig) := by
  simp only [opsB]
  after_results_simp

set_option maxRecDepth 8192 in
/-- No operation of the second stretch writes argument 1. -/
theorem keepB_arg1 (V : Valuation τ sig (Elt F)) :
    after (opsB (F := F)) V (main_arg1 : DevRef τ sig) = V (main_arg1 : DevRef τ sig) := by
  simp only [opsB]
  after_results_simp

set_option maxRecDepth 8192 in
/-- No operation of the second stretch writes argument 2. -/
theorem keepB_arg2 (V : Valuation τ sig (Elt F)) :
    after (opsB (F := F)) V (main_arg2 : DevRef τ sig) = V (main_arg2 : DevRef τ sig) := by
  simp only [opsB]
  after_results_simp

set_option maxRecDepth 8192 in
/-- No operation of the second stretch writes argument 3. -/
theorem keepB_arg3 (V : Valuation τ sig (Elt F)) :
    after (opsB (F := F)) V (main_arg3 : DevRef τ sig) = V (main_arg3 : DevRef τ sig) := by
  simp only [opsB]
  after_results_simp

set_option maxRecDepth 8192 in
/-- No operation of the second stretch writes argument 4. -/
theorem keepB_arg4 (V : Valuation τ sig (Elt F)) :
    after (opsB (F := F)) V (main_arg4 : DevRef τ sig) = V (main_arg4 : DevRef τ sig) := by
  simp only [opsB]
  after_results_simp

set_option maxRecDepth 8192 in
/-- No operation of the second stretch writes argument 5. -/
theorem keepB_arg5 (V : Valuation τ sig (Elt F)) :
    after (opsB (F := F)) V (main_arg5 : DevRef τ sig) = V (main_arg5 : DevRef τ sig) := by
  simp only [opsB]
  after_results_simp

set_option maxRecDepth 8192 in
/-- No operation of the second stretch writes argument 6. -/
theorem keepB_arg6 (V : Valuation τ sig (Elt F)) :
    after (opsB (F := F)) V (main_arg6 : DevRef τ sig) = V (main_arg6 : DevRef τ sig) := by
  simp only [opsB]
  after_results_simp

set_option maxRecDepth 8192 in
/-- No operation of the second stretch writes argument 7. -/
theorem keepB_arg7 (V : Valuation τ sig (Elt F)) :
    after (opsB (F := F)) V (main_arg7 : DevRef τ sig) = V (main_arg7 : DevRef τ sig) := by
  simp only [opsB]
  after_results_simp

set_option maxRecDepth 8192 in
/-- No operation of the second stretch writes argument 8. -/
theorem keepB_arg8 (V : Valuation τ sig (Elt F)) :
    after (opsB (F := F)) V (main_arg8 : DevRef τ sig) = V (main_arg8 : DevRef τ sig) := by
  simp only [opsB]
  after_results_simp

set_option maxRecDepth 8192 in
/-- No operation of the second stretch writes argument 9. -/
theorem keepB_arg9 (V : Valuation τ sig (Elt F)) :
    after (opsB (F := F)) V (main_arg9 : DevRef τ sig) = V (main_arg9 : DevRef τ sig) := by
  simp only [opsB]
  after_results_simp

set_option maxRecDepth 8192 in
/-- No operation of the second stretch writes argument 10. -/
theorem keepB_arg10 (V : Valuation τ sig (Elt F)) :
    after (opsB (F := F)) V (main_arg10 : DevRef τ sig) = V (main_arg10 : DevRef τ sig) := by
  simp only [opsB]
  after_results_simp

set_option maxRecDepth 8192 in
/-- No operation of the second stretch writes argument 11. -/
theorem keepB_arg11 (V : Valuation τ sig (Elt F)) :
    after (opsB (F := F)) V (main_arg11 : DevRef τ sig) = V (main_arg11 : DevRef τ sig) := by
  simp only [opsB]
  after_results_simp

set_option maxRecDepth 8192 in
/-- No operation of the second stretch writes argument 12. -/
theorem keepB_arg12 (V : Valuation τ sig (Elt F)) :
    after (opsB (F := F)) V (main_arg12 : DevRef τ sig) = V (main_arg12 : DevRef τ sig) := by
  simp only [opsB]
  after_results_simp

/-- No operation of @main writes argument 0. -/
theorem arg0_eq (V : Valuation τ sig (Elt F)) :
    after (ops (F := F)) V (main_arg0 : DevRef τ sig) = V (main_arg0 : DevRef τ sig) := by
  rw [after_ops, keepB_arg0, keepA_arg0]

/-- No operation of @main writes argument 1. -/
theorem arg1_eq (V : Valuation τ sig (Elt F)) :
    after (ops (F := F)) V (main_arg1 : DevRef τ sig) = V (main_arg1 : DevRef τ sig) := by
  rw [after_ops, keepB_arg1, keepA_arg1]

/-- No operation of @main writes argument 2. -/
theorem arg2_eq (V : Valuation τ sig (Elt F)) :
    after (ops (F := F)) V (main_arg2 : DevRef τ sig) = V (main_arg2 : DevRef τ sig) := by
  rw [after_ops, keepB_arg2, keepA_arg2]

/-- No operation of @main writes argument 3. -/
theorem arg3_eq (V : Valuation τ sig (Elt F)) :
    after (ops (F := F)) V (main_arg3 : DevRef τ sig) = V (main_arg3 : DevRef τ sig) := by
  rw [after_ops, keepB_arg3, keepA_arg3]

/-- No operation of @main writes argument 4. -/
theorem arg4_eq (V : Valuation τ sig (Elt F)) :
    after (ops (F := F)) V (main_arg4 : DevRef τ sig) = V (main_arg4 : DevRef τ sig) := by
  rw [after_ops, keepB_arg4, keepA_arg4]

/-- No operation of @main writes argument 5. -/
theorem arg5_eq (V : Valuation τ sig (Elt F)) :
    after (ops (F := F)) V (main_arg5 : DevRef τ sig) = V (main_arg5 : DevRef τ sig) := by
  rw [after_ops, keepB_arg5, keepA_arg5]

/-- No operation of @main writes argument 6. -/
theorem arg6_eq (V : Valuation τ sig (Elt F)) :
    after (ops (F := F)) V (main_arg6 : DevRef τ sig) = V (main_arg6 : DevRef τ sig) := by
  rw [after_ops, keepB_arg6, keepA_arg6]

/-- No operation of @main writes argument 7. -/
theorem arg7_eq (V : Valuation τ sig (Elt F)) :
    after (ops (F := F)) V (main_arg7 : DevRef τ sig) = V (main_arg7 : DevRef τ sig) := by
  rw [after_ops, keepB_arg7, keepA_arg7]

/-- No operation of @main writes argument 8. -/
theorem arg8_eq (V : Valuation τ sig (Elt F)) :
    after (ops (F := F)) V (main_arg8 : DevRef τ sig) = V (main_arg8 : DevRef τ sig) := by
  rw [after_ops, keepB_arg8, keepA_arg8]

/-- No operation of @main writes argument 9. -/
theorem arg9_eq (V : Valuation τ sig (Elt F)) :
    after (ops (F := F)) V (main_arg9 : DevRef τ sig) = V (main_arg9 : DevRef τ sig) := by
  rw [after_ops, keepB_arg9, keepA_arg9]

/-- No operation of @main writes argument 10. -/
theorem arg10_eq (V : Valuation τ sig (Elt F)) :
    after (ops (F := F)) V (main_arg10 : DevRef τ sig) = V (main_arg10 : DevRef τ sig) := by
  rw [after_ops, keepB_arg10, keepA_arg10]

/-- No operation of @main writes argument 11. -/
theorem arg11_eq (V : Valuation τ sig (Elt F)) :
    after (ops (F := F)) V (main_arg11 : DevRef τ sig) = V (main_arg11 : DevRef τ sig) := by
  rw [after_ops, keepB_arg11, keepA_arg11]

/-- No operation of @main writes argument 12. -/
theorem arg12_eq (V : Valuation τ sig (Elt F)) :
    after (ops (F := F)) V (main_arg12 : DevRef τ sig) = V (main_arg12 : DevRef τ sig) := by
  rw [after_ops, keepB_arg12, keepA_arg12]

/-- After @main's operations the result buffer holds the specification's value of the thirteen arguments: the second
    stretch stacks the two dense layers' rectified values, the two activations and the two feature arrays, read over
    what the first stretch leaves, which is the activations in their buffers and the arguments untouched. -/
theorem out_eq (V : Valuation τ sig (Elt Ideal)) :
    after (ops (F := Ideal)) V (main_v54 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops, read_opsB, readA_v17, readA_v35, keepA_arg0, keepA_arg1, keepA_arg9, keepA_arg10, keepA_arg11, keepA_arg12]
  rfl

/-- Every operation determines its results: none allocates. -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- On every device, from any memory with zero counters: every weakly fair execution of @main terminates with the
    result buffer at the specification's value of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v54).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ (fun _ => ops_fresh))

/-- @main runs and leaves its thirteen argument buffers unchanged. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m g)

end Cert.ReferenceIdeal.RefRun

end
-- ==== Proof.lean ====
/-
  The certificate: a graph layer's forward pass computed by six row-blocked kernels (two matrix products, two
  bias-plus-leaky-rectifier maps, two dense layers on a pair of arrays, each over 20 blocks of 5000 rows) with host
  gathers and scatter-adds between them, against the plain array program.

  Over the extended reals both programs compute the same whole-array function of the thirteen arguments (Spec.lean):
  a block of rows of a matrix product is the product of the block of rows; the kernel's dense layer adds the products
  of the two halves of the [256,128] weight with the two arrays, the reference multiplies the arrays joined along the
  feature axis with the whole weight, and a sum over 256 joined columns is the sum over the first 128 plus the sum
  over the last 128 (addition on the extended reals is commutative and associative; no distributivity and no
  finiteness is used); the leaky rectifier multiplies by 0.1 on the right in one program and on the left in the
  other. The gathers and scatter-adds are the same operations in both programs and are carried as one function.

  Each program runs to its end from any memory, faulting nowhere and leaving its argument arrays unchanged: the kernel
  programs by the run of their six regions and five host stretches (KBRun.lean, KIRun.lean), the reference by the run
  of its host operations (RefRun.lean). The idealization rewrote nothing, so that claim is trivial.
-/
import proofs.«159471_j32143535243482_1_alg».proof.Defs
import proofs.«159471_j32143535243482_1_alg».proof.Proof.Gen.Kernel
import proofs.«159471_j32143535243482_1_alg».proof.Proof.Gen.KernelIdeal
import proofs.«159471_j32143535243482_1_alg».proof.Proof.Gen.ReferenceIdeal
import proofs.«159471_j32143535243482_1_alg».proof.Proof.Gen.Pre_finite_inputs
import proofs.«159471_j32143535243482_1_alg».proof.Proof.KBRun
import proofs.«159471_j32143535243482_1_alg».proof.Proof.KIFinal
import proofs.«159471_j32143535243482_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ => Cert.ReferenceIdeal.RefRun.frame m ρ

/-- The idealization rewrote no operation. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun r h c => ⟨(h c).1.trans ?_, (h c).2⟩)
    (Cert.ReferenceIdeal.RefRun.run m' ρ')
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
